-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S2x4096x512 .f32) (main_arg1 : FVec F S1536x512 .f32) (main_arg2 : FVec F S512x512 .f32) (main_arg3 : FVec F S512 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S1x512 : Shape := ⟨2, ![1, 512]⟩
abbrev S8192x512 : Shape := ⟨2, ![8192, 512]⟩
abbrev S8192x1536 : Shape := ⟨2, ![8192, 1536]⟩
abbrev S1024x512 : Shape := ⟨2, ![1024, 512]⟩
abbrev S1024x1536 : Shape := ⟨2, ![1024, 1536]⟩
abbrev S2x4096x1536 : Shape := ⟨3, ![2, 4096, 1536]⟩
abbrev S1x256x512 : Shape := ⟨3, ![1, 256, 512]⟩
abbrev S1x512x512 : Shape := ⟨3, ![1, 512, 512]⟩
abbrev S8x256x1 : Shape := ⟨3, ![8, 256, 1]⟩
abbrev S8x256x64 : Shape := ⟨3, ![8, 256, 64]⟩
abbrev S256x512 : Shape := ⟨2, ![256, 512]⟩
abbrev S256x8x64 : Shape := ⟨3, ![256, 8, 64]⟩
abbrev S512x8x64 : Shape := ⟨3, ![512, 8, 64]⟩
abbrev S8x512x64 : Shape := ⟨3, ![8, 512, 64]⟩
abbrev S8x256x512 : Shape := ⟨3, ![8, 256, 512]⟩
abbrev S8x256 : Shape := ⟨2, ![8, 256]⟩

abbrev nBuf : Space → Nat
  | .hbm => 14
  | .vmem => 19
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S1536x512, .bf16⟩
  | .hbm, ⟨5, _⟩ => ⟨S512x512, .bf16⟩
  | .hbm, ⟨6, _⟩ => ⟨S1x512, .f32⟩
  | .hbm, ⟨7, _⟩ => ⟨S8192x512, .f32⟩
  | .hbm, ⟨8, _⟩ => ⟨S8192x1536, .bf16⟩
  | .hbm, ⟨9, _⟩ => ⟨S2x4096x1536, .bf16⟩
  | .hbm, ⟨10, _⟩ => ⟨S2x4096x512, .bf16⟩
  | .hbm, ⟨11, _⟩ => ⟨S2x4096x512, .bf16⟩
  | .hbm, ⟨12, _⟩ => ⟨S2x4096x512, .bf16⟩
  | .hbm, ⟨13, _⟩ => ⟨S2x4096x512, .f32⟩
  | .local _ .vmem, ⟨0, _⟩ => ⟨S1024x512, .f32⟩
  | .local _ .vmem, ⟨1, _⟩ => ⟨S1024x512, .f32⟩
  | .local _ .vmem, ⟨2, _⟩ => ⟨S1536x512, .bf16⟩
  | .local _ .vmem, ⟨3, _⟩ => ⟨S1024x1536, .bf16⟩
  | .local _ .vmem, ⟨4, _⟩ => ⟨S1024x1536, .bf16⟩
  | .local _ .vmem, ⟨5, _⟩ => ⟨S1x256x512, .bf16⟩
  | .local _ .vmem, ⟨6, _⟩ => ⟨S1x256x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S512x512, .bf16⟩
  | .local _ .vmem, ⟨12, _⟩ => ⟨S1x512, .f32⟩
  | .local _ .vmem, ⟨13, _⟩ => ⟨S1x256x512, .f32⟩
  | .local _ .vmem, ⟨14, _⟩ => ⟨S1x256x512, .f32⟩
  | .local _ .vmem, ⟨15, _⟩ => ⟨S8x256x1, .f32⟩
  | .local _ .vmem, ⟨16, _⟩ => ⟨S8x256x1, .f32⟩
  | .local _ .vmem, ⟨17, _⟩ => ⟨S8x256x64, .f32⟩
  | .local _ .vmem, ⟨18, _⟩ => ⟨S8x256x64, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 16, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_33 : BitVec 32 := 0#32
  let v45 : BitVec 1 := Scalar.cmpi .ne v44 c0_i32_33
  v45

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bitsLt_bf16_f32 : FTy.bits .bf16 < FTy.bits .f32
  shapeCasts_S512_S1x512 : S512.ShapeCasts S1x512
  shapeCasts_S2x4096x512_S8192x512 : S2x4096x512.ShapeCasts S8192x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S8192x1536_S2x4096x1536 : S8192x1536.ShapeCasts S2x4096x1536
  slices_S2x4096x1536_S2x4096x512_0_0_0 : S2x4096x1536.Slices ![0, 0, 0] S2x4096x512
  slices_S2x4096x1536_S2x4096x512_0_0_512 : S2x4096x1536.Slices ![0, 0, 512] S2x4096x512
  slices_S2x4096x1536_S2x4096x512_0_0_1024 : S2x4096x1536.Slices ![0, 0, 1024] S2x4096x512
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x64_S8x256x64_0_0_0 : ∀ a, (![0, 0, 0] : Fin 3 → Nat) a + S8x256x64.size a ≤ S8x256x64.size a
  h_S8x256x64 : 0 < S8x256x64.numel
  shapeCasts_S8x256x64_S8x256x64 : S8x256x64.ShapeCasts S8x256x64
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S256x8x64 : S256x512.ShapeCasts S256x8x64
  transposes_S256x8x64_p1_0_2_S8x256x64 : S256x8x64.Transposes [1, 0, 2] S8x256x64
  packedbf16_S8x256x64_S8x256x64_0_0_0 : (Rect.unit (s := S8x256x64) ![0, 0, 0] S8x256x64.size inb_S8x256x64_S8x256x64_0_0_0).PackedRows (EltTy.packing .bf16)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S512x8x64 : S512x512.ShapeCasts S512x8x64
  transposes_S512x8x64_p1_0_2_S8x512x64 : S512x8x64.Transposes [1, 0, 2] S8x512x64
  reduces_S8x256x512_S8x256 : S8x256x512.Reduces [2] S8x256
  shapeCasts_S8x256_S8x256x1 : S8x256.ShapeCasts S8x256x1
  broadcasts_S8x256x1_S8x256x512 : S8x256x1.Broadcasts S8x256x512
  broadcasts_S8x256x1_S8x256x64 : S8x256x1.Broadcasts S8x256x64
  transposes_S8x256x64_p1_0_2_S256x8x64 : S8x256x64.Transposes [1, 0, 2] S256x8x64
  shapeCasts_S256x8x64_S256x512 : S256x8x64.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S1x256x512 : S256x512.ShapeCasts S1x256x512
  dot_S1024x512_S1536x512_S1024x1536_1_1_0_0_n_n_wf : DotDims.WF S1024x512 S1536x512 S1024x1536 [1] [1] [0] [0] [] []
  dot_S8x256x64_S8x512x64_S8x256x512_2_2_1_1_0_0_wf : DotDims.WF S8x256x64 S8x512x64 S8x256x512 [2] [2] [1] [1] [0] [0]
  dot_S8x256x512_S8x512x64_S8x256x64_2_1_1_2_0_0_wf : DotDims.WF S8x256x512 S8x512x64 S8x256x64 [2] [1] [1] [2] [0] [0]
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S8192x1536.size a
  hwx0_2 : ∀ i : grid0.Coords, EltTy.bits .bf16 = 32 ∨ (Rect.block (s := S8192x1536) S1024x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S2x4096x512.size a
  hwx1_0 : ∀ i : grid1.Coords, EltTy.bits .bf16 = 32 ∨ (Rect.block (s := S2x4096x512) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S2x4096x512.size a
  hwx1_1 : ∀ i : grid1.Coords, EltTy.bits .bf16 = 32 ∨ (Rect.block (s := S2x4096x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S2x4096x512.size a
  hwx1_2 : ∀ i : grid1.Coords, EltTy.bits .bf16 = 32 ∨ (Rect.block (s := S2x4096x512) S1x512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x512.size a ≤ S2x4096x512.size a
  hwx1_5 : ∀ i : grid1.Coords, EltTy.bits .f32 = 32 ∨ (Rect.block (s := S2x4096x512) S1x256x512.size (cc1_transform_5 i) (hinb1_5 i)).WholeWords (EltTy.packing .f32)

variable [Facts₀]

def dot_S1024x512_S1536x512_S1024x1536_1_1_0_0_n_n : DotDims S1024x512 S1536x512 S1024x1536 where
  lhsContracting := [1]
  rhsContracting := [1]
  lhsNonContracting := [0]
  rhsNonContracting := [0]
  lhsBatch := []
  rhsBatch := []
  wf := dot_S1024x512_S1536x512_S1024x1536_1_1_0_0_n_n_wf
def dot_S8x256x64_S8x512x64_S8x256x512_2_2_1_1_0_0 : DotDims S8x256x64 S8x512x64 S8x256x512 where
  lhsContracting := [2]
  rhsContracting := [2]
  lhsNonContracting := [1]
  rhsNonContracting := [1]
  lhsBatch := [0]
  rhsBatch := [0]
  wf := dot_S8x256x64_S8x512x64_S8x256x512_2_2_1_1_0_0_wf
def dot_S8x256x512_S8x512x64_S8x256x64_2_1_1_2_0_0 : DotDims S8x256x512 S8x512x64 S8x256x64 where
  lhsContracting := [2]
  rhsContracting := [1]
  lhsNonContracting := [1]
  rhsNonContracting := [2]
  lhsBatch := [0]
  rhsBatch := [0]
  wf := dot_S8x256x512_S8x512x64_S8x256x64_2_1_1_2_0_0_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x4096x512 : Shape := ⟨3, ![2, 4096, 512]⟩
abbrev S1536x512 : Shape := ⟨2, ![1536, 512]⟩
abbrev S512x512 : Shape := ⟨2, ![512, 512]⟩
abbrev S512 : Shape := ⟨1, ![512]⟩
abbrev S2x4096x1536 : Shape := ⟨3, ![2, 4096, 1536]⟩
abbrev S2x4096x3x8x64 : Shape := ⟨5, ![2, 4096, 3, 8, 64]⟩
abbrev S3x2x4096x8x64 : Shape := ⟨5, ![3, 2, 4096, 8, 64]⟩
abbrev S1x2x4096x8x64 : Shape := ⟨5, ![1, 2, 4096, 8, 64]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S2x4096x1536, .f32⟩
  | .hbm, ⟨5, _⟩ => ⟨S2x4096x3x8x64, .f32⟩
  | .hbm, ⟨6, _⟩ => ⟨S3x2x4096x8x64, .f32⟩
  | .hbm, ⟨7, _⟩ => ⟨S1x2x4096x8x64, .f32⟩
  | .hbm, ⟨8, _⟩ => ⟨S2x4096x8x64, .f32⟩
  | .hbm, ⟨9, _⟩ => ⟨S1x2x4096x8x64, .f32⟩
  | .hbm, ⟨10, _⟩ => ⟨S2x4096x8x64, .f32⟩
  | .hbm, ⟨11, _⟩ => ⟨S1x2x4096x8x64, .f32⟩
  | .hbm, ⟨12, _⟩ => ⟨S2x4096x8x64, .f32⟩
  | .hbm, ⟨13, _⟩ => ⟨S2x8x4096x64, .f32⟩
  | .hbm, ⟨14, _⟩ => ⟨S2x8x4096x64, .f32⟩
  | .hbm, ⟨15, _⟩ => ⟨S2x8x4096x64, .f32⟩
  | .hbm, ⟨16, _⟩ => ⟨S2x8x4096x4096, .f32⟩
  | .hbm, ⟨17, _⟩ => ⟨S_, .f32⟩
  | .hbm, ⟨18, _⟩ => ⟨S2x8x4096x4096, .f32⟩
  | .hbm, ⟨19, _⟩ => ⟨S2x8x4096x4096, .f32⟩
  | .hbm, ⟨20, _⟩ => ⟨S_, .f32⟩
  | .hbm, ⟨21, _⟩ => ⟨S2x8x4096, .f32⟩
  | .hbm, ⟨22, _⟩ => ⟨S_, .f32⟩
  | .hbm, ⟨23, _⟩ => ⟨S2x8x4096, .f32⟩
  | .hbm, ⟨24, _⟩ => ⟨S2x8x4096, .f32⟩
  | .hbm, ⟨25, _⟩ => ⟨S2x8x4096x1, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S_, .f32⟩
  | .hbm, ⟨30, _⟩ => ⟨S2x8x4096, .f32⟩
  | .hbm, ⟨31, _⟩ => ⟨S2x8x4096x1, .f32⟩
  | .hbm, ⟨32, _⟩ => ⟨S2x8x4096x4096, .f32⟩
  | .hbm, ⟨33, _⟩ => ⟨S2x8x4096x4096, .f32⟩
  | .hbm, ⟨34, _⟩ => ⟨S2x8x4096x64, .f32⟩
  | .hbm, ⟨35, _⟩ => ⟨S2x4096x8x64, .f32⟩
  | .hbm, ⟨36, _⟩ => ⟨S2x4096x512, .f32⟩
  | .hbm, ⟨37, _⟩ => ⟨S2x4096x512, .f32⟩
  | .hbm, ⟨38, _⟩ => ⟨S1x1x512, .f32⟩
  | .hbm, ⟨39, _⟩ => ⟨S2x4096x512, .f32⟩
  | .hbm, ⟨40, _⟩ => ⟨S2x4096x512, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  shapeCasts_S2x4096x1536_S2x4096x3x8x64 : S2x4096x1536.ShapeCasts S2x4096x3x8x64
  transposes_S2x4096x3x8x64_S3x2x4096x8x64_2_0_1_3_4 : S2x4096x3x8x64.Transposes [2, 0, 1, 3, 4] S3x2x4096x8x64
  slices_S3x2x4096x8x64_S1x2x4096x8x64_0_0_0_0_0 : S3x2x4096x8x64.Slices ![0, 0, 0, 0, 0] S1x2x4096x8x64
  shapeCasts_S1x2x4096x8x64_S2x4096x8x64 : S1x2x4096x8x64.ShapeCasts S2x4096x8x64
  slices_S3x2x4096x8x64_S1x2x4096x8x64_1_0_0_0_0 : S3x2x4096x8x64.Slices ![1, 0, 0, 0, 0] S1x2x4096x8x64
  slices_S3x2x4096x8x64_S1x2x4096x8x64_2_0_0_0_0 : S3x2x4096x8x64.Slices ![2, 0, 0, 0, 0] S1x2x4096x8x64
  transposes_S2x4096x8x64_S2x8x4096x64_0_2_1_3 : S2x4096x8x64.Transposes [0, 2, 1, 3] S2x8x4096x64
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x8x4096x64_S2x4096x8x64_0_2_1_3 : S2x8x4096x64.Transposes [0, 2, 1, 3] S2x4096x8x64
  shapeCasts_S2x4096x8x64_S2x4096x512 : S2x4096x8x64.ShapeCasts S2x4096x512
  bcast_S512_S1x1x512_2 : S512.BroadcastsInDim S1x1x512 (![2] : Fin 1 → Fin S1x1x512.rank)
  bcast_S1x1x512_S2x4096x512_0_1_2 : S1x1x512.BroadcastsInDim S2x4096x512 (![0, 1, 2] : Fin 3 → Fin S2x4096x512.rank)
  dot_S2x4096x512_S1536x512_S2x4096x1536_2_1_01_0_n_n_wf : DotDims.WF S2x4096x512 S1536x512 S2x4096x1536 [2] [1] [0, 1] [0] [] []
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]
  dot_S2x4096x512_S512x512_S2x4096x512_2_1_01_0_n_n_wf : DotDims.WF S2x4096x512 S512x512 S2x4096x512 [2] [1] [0, 1] [0] [] []

variable [Facts₀]

def dot_S2x4096x512_S1536x512_S2x4096x1536_2_1_01_0_n_n : DotDims S2x4096x512 S1536x512 S2x4096x1536 where
  lhsContracting := [2]
  rhsContracting := [1]
  lhsNonContracting := [0, 1]
  rhsNonContracting := [0]
  lhsBatch := []
  rhsBatch := []
  wf := dot_S2x4096x512_S1536x512_S2x4096x1536_2_1_01_0_n_n_wf
def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf
def dot_S2x4096x512_S512x512_S2x4096x512_2_1_01_0_n_n : DotDims S2x4096x512 S512x512 S2x4096x512 where
  lhsContracting := [2]
  rhsContracting := [1]
  lhsNonContracting := [0, 1]
  rhsNonContracting := [0]
  lhsBatch := []
  rhsBatch := []
  wf := dot_S2x4096x512_S512x512_S2x4096x512_2_1_01_0_n_n_wf

class Facts : Prop extends Facts₀ where

variable [Facts]
-- ==== Proof.Kernel.R0.lean ====
/-
  The first launch: the projection of a block of 1024 rows of the flattened input onto the 1536 projection rows.
  One grid point reads its block of rows and the whole weight matrix and stores the whole 1024 x 1536 block of products;
  nothing is kept between points. Stated at any float instance and at any contents `V` of the buffers when the launch
  is entered: what the output block holds after a point (`out0_2`), the body's triple, the launch's proof data and its
  body obligation.
-/
import proofs.«161986_j996432413274_2_alg».proof.Proof.Gen.Kernel.Launch
import proofs.«161986_j996432413274_2_alg».proof.Proof.Gen.Kernel.Skeleton
import proofs.«161986_j996432413274_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x512 := Rect.unit (s := S1024x512) ![0, 0] S1024x512.size inb_S1024x512_S1024x512_0_0
abbrev r0_1 : Rect S1536x512 := Rect.unit (s := S1536x512) ![0, 0] S1536x512.size inb_S1536x512_S1536x512_0_0
abbrev r0_2 : Rect S1024x1536 := Rect.unit (s := S1024x1536) ![0, 0] S1024x1536.size inb_S1024x1536_S1024x1536_0_0

/-- The output block after the body: its one whole-block store of the products of the row block with the weights. -/
def out0_2 (x0 : Vec F S1024x512 .f32) (x1 : Vec F S1536x512 .bf16) : Vec F S1024x1536 .bf16 :=
  View.canon [⟨r0_2, k0_pay1 (View.ld x0 r0_0) (View.ld x1 r0_1)⟩]

/-- The one store is of the whole block. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

set_option maxHeartbeats 1000000 in
/-- The body on whole staging buffers, the inputs' at their contents and the output's at anything, runs to the
    continuation with the inputs' as they were and the output's at `out0_2` of them. -/
theorem sound_kernel0 (c : Dev nD) (E : Set ℕ) (i : grid0.Coords)
    (arg1 : Memref sig .tc .vmem S1024x512 .f32) (harg1 : arg1.IsWhole) (arg2 : Memref sig .tc .vmem S1536x512 .bf16) (harg2 : arg2.IsWhole)
    (arg3 : Memref sig .tc .vmem S1024x1536 .bf16) (harg3 : arg3.IsWhole)
    (x0 : Vec F S1024x512 .f32) (x1 : Vec F S1536x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after a point the inputs' buffers at their blocks and the
    output's at `out0_2` of them; the invariant is the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Kernel.R1Runs.lean ====
/-
  The second launch, the attention with its output projection, at one grid point (batch, block of 256 query rows, block of
  512 key rows): what every case of the body shares. The body branches twice on the key-block coordinate: at the first key
  block it resets the running maximum, the running row sum and the accumulator and caches the scaled queries; at the last it
  divides the accumulator by the row sum, projects and stores the output block. With eight key blocks the two never meet, so a
  point is in one of three cases. Four scratch buffers carry the state from a point to the next; the output window is
  written back only at the last key block.
-/
import proofs.«161986_j996432413274_2_alg».proof.Proof.Gen.Kernel.Launch
import proofs.«161986_j996432413274_2_alg».proof.Proof.Gen.Kernel.Skeleton
import proofs.«161986_j996432413274_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds the point's block at every point, fetched there or not (an input that is not
    fetched at a point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branches, decided over the grid -/

/-- The first branch is taken: the key-block coordinate is zero. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken: the key-block coordinate is the last, seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last key block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key block it is live. -/
theorem liveAt1_5 : ∀ t : Fin cfg1.N, cond1_1 (grid1.coords t) → cfg1.idle 5 (grid1.coords t) = false := by decide +kernel

/-! ## The memrefs the body is called with -/

abbrev VO1_5 : View sig .tc .vmem S1x256x512 .f32 := (Memref.whole cc1_stg5_0 : Memref sig .tc .vmem S1x256x512 .f32).view
abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x512 .f32 := win1_5.stage (cfg1.slots t 5)
abbrev hs1_5 (t : Fin cfg1.N) : (ms1_5 t).IsWhole := hstage1_5 ((cfg1.slots t 5).cast nbuf1_5)
/-- The four scratch buffers: the running maximum, the running row sum, the accumulator, the cached scaled queries. -/
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x64 .f32 := Memref.whole cc1_scratch2
abbrev scM1_3 : Memref sig .tc .vmem S8x256x64 .bf16 := Memref.whole cc1_scratch3
abbrev VS1_0 : View sig .tc .vmem S8x256x1 .f32 := scM1_0.view
abbrev VS1_1 : View sig .tc .vmem S8x256x1 .f32 := scM1_1.view
abbrev VS1_2 : View sig .tc .vmem S8x256x64 .f32 := scM1_2.view
abbrev VS1_3 : View sig .tc .vmem S8x256x64 .bf16 := scM1_3.view

/-- The scoped rest of the second launch with the four scratch buffers as memrefs owned at some contents; the first
    launch's staging buffers ride along at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.Kernel.R1RunA.lean ====
/-
  The attention body at the first key block of a query block: the first branch is taken, the second is not. Whatever the
  four scratch buffers held is overwritten: the running maximum by minus infinity, the row sum and the accumulator by zero,
  the cache by the scaled queries; the body then makes its first update of the three state buffers. The idle output buffer
  is handed back as it was.
-/
import proofs.«161986_j996432413274_2_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four scratches at such a point, with the proof that the body runs. -/
noncomputable def kernelRun1_A (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    Σ' (LS0 : List (View.Piece (Elt F) S8x256x1 .f32)) (LS1 : List (View.Piece (Elt F) S8x256x1 .f32)) (LS2 : List (View.Piece (Elt F) S8x256x64 .f32)), { LS3 : List (View.Piece (Elt F) S8x256x64 .bf16) //
      ∀ (xi5 : Vec F S1x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.Kernel.Hand

end
-- ==== Proof.Kernel.R1RunB.lean ====
/-
  The attention body at a point strictly between the first and the last key block: neither branch is taken. It reads the
  carried running maximum, row sum, accumulator and cached queries, and stores the new maximum, row sum and accumulator; the
  cached queries and the idle output buffer are handed back as they were.
-/
import proofs.«161986_j996432413274_2_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three state scratches at such a point, with the proof that the body runs. -/
noncomputable def kernelRun1_B (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    Σ' (LS0 : List (View.Piece (Elt F) S8x256x1 .f32)) (LS1 : List (View.Piece (Elt F) S8x256x1 .f32)), { LS2 : List (View.Piece (Elt F) S8x256x64 .f32) //
      ∀ (xi5 : Vec F S1x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.Kernel.R1RunC.lean ====
/-
  The attention body at the last key block of a query block: the first branch is not taken, the second is. After the last
  update of the three state buffers the body divides the accumulator by the row sum, lays the heads side by side, multiplies by
  the output weights, adds the bias and stores the whole output block, whatever the output buffer held before.
-/
import proofs.«161986_j996432413274_2_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and the three state scratches at such a point, with the proof
    that the body runs. -/
noncomputable def kernelRun1_C (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    Σ' (L5 : List (View.Piece (Elt F) S1x256x512 .f32)) (LS0 : List (View.Piece (Elt F) S8x256x1 .f32)) (LS1 : List (View.Piece (Elt F) S8x256x1 .f32)), { LS2 : List (View.Piece (Elt F) S8x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.Kernel.Hand

end
-- ==== Proof.Kernel.R1Frame.lean ====
/-
  The second launch's proof data. Per case of the body: that its stores tile each scratch (and, at the last key block, the
  output buffer) and what they leave there. Then the state after each grid point, by recursion over the points in the
  pipeline's order: the point's case applied to the point's blocks and to the state the point before left. The invariant of
  the launch names that state, so that a middle or last key block finds the running maximum, row sum, accumulator and cached
  queries its query block's earlier key blocks left. Last, the body obligation, by cases on the key-block coordinate.
-/
import proofs.«161986_j996432413274_2_alg».proof.Proof.Kernel.R1RunA
import proofs.«161986_j996432413274_2_alg».proof.Proof.Kernel.R1RunB
import proofs.«161986_j996432413274_2_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of this case into scratch 0 tile it. -/
theorem scover1_A_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).1 S8x256x1.size (by sl_kernel_rfl) y

/-- What this case leaves in scratch 0: its stores read back. -/
def sout1_A_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).1)

/-- The stores of this case into scratch 1 tile it. -/
theorem scover1_A_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.1 S8x256x1.size (by sl_kernel_rfl) y

/-- What this case leaves in scratch 1: its stores read back. -/
def sout1_A_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.1)

/-- The stores of this case into scratch 2 tile it. -/
theorem scover1_A_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.1 S8x256x64.size (by sl_kernel_rfl) y

/-- What this case leaves in scratch 2: its stores read back. -/
def sout1_A_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.1)

/-- The stores of this case into scratch 3 tile it. -/
theorem scover1_A_3 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.1 S8x256x64.size (by sl_kernel_rfl) y

/-- What this case leaves in scratch 3: its stores read back. -/
def sout1_A_3 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x64 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

/-- The stores of this case into scratch 0 tile it. -/
theorem scover1_B_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1 S8x256x1.size (by sl_kernel_rfl) y

/-- What this case leaves in scratch 0: its stores read back. -/
def sout1_B_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The stores of this case into scratch 1 tile it. -/
theorem scover1_B_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 S8x256x1.size (by sl_kernel_rfl) y

/-- What this case leaves in scratch 1: its stores read back. -/
def sout1_B_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The stores of this case into scratch 2 tile it. -/
theorem scover1_B_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x64.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S8x256x64.size (by sl_kernel_rfl) y

/-- What this case leaves in scratch 2: its stores read back. -/
def sout1_B_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The stores of this case into scratch 0 tile it. -/
theorem scover1_C_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 S8x256x1.size (by sl_kernel_rfl) y

/-- What this case leaves in scratch 0: its stores read back. -/
def sout1_C_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The stores of this case into scratch 1 tile it. -/
theorem scover1_C_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S8x256x1.size (by sl_kernel_rfl) y

/-- What this case leaves in scratch 1: its stores read back. -/
def sout1_C_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The stores of this case into scratch 2 tile it. -/
theorem scover1_C_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x64.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S8x256x64.size (by sl_kernel_rfl) y

/-- What this case leaves in scratch 2: its stores read back. -/
def sout1_C_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- At the last key block the one store into the output buffer is of the whole block. -/
theorem cover1_C_5 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S1x256x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1 S1x256x512.size (by sl_kernel_rfl) y

/-- What the last key block leaves in the output buffer. -/
def out1_C_5 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S1x256x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The idle output buffer's place in the state: nothing consults it (the window is neither written back at such a point
    nor read at the next). -/
def outIdle1_5 : Vec F S1x256x512 .f32 := VO1_5.read (Elt F) (VO1_5.writes (Elt F) VO1_5.junk [])

section Steps
variable (V : (c : Dev nD) → (b : Ref sig .tc) → Buf (Elt F) ((c : Thread nD τ).loc b))

/-- The state after a first key block: the output buffer idle, the four scratches at what the reset and the first update leave. -/
def stepA (c : Dev nD) (t : Fin cfg1.N) (h0 : t.val % 8 = 0) : (Vec F S1x256x512 .f32 × Vec F S8x256x1 .f32 × Vec F S8x256x1 .f32 × Vec F S8x256x64 .f32 × Vec F S8x256x64 .bf16) :=
  (outIdle1_5,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t))

/-- The state after a middle key block, from the state the point before left: the three state scratches updated, the cached
    queries as they were. -/
def stepB (c : Dev nD) (t : Fin cfg1.N) (h0 : ¬t.val % 8 = 0) (h1 : ¬t.val % 8 = 7) (prev : (Vec F S1x256x512 .f32 × Vec F S8x256x1 .f32 × Vec F S8x256x1 .f32 × Vec F S8x256x64 .f32 × Vec F S8x256x64 .bf16)) : (Vec F S1x256x512 .f32 × Vec F S8x256x1 .f32 × Vec F S8x256x1 .f32 × Vec F S8x256x64 .f32 × Vec F S8x256x64 .bf16) :=
  (outIdle1_5,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   prev.2.2.2.2)

/-- The state after a last key block, from the state the point before left: the output block stored, the three state
    scratches updated, the cached queries as they were. -/
def stepC (c : Dev nD) (t : Fin cfg1.N) (h1 : t.val % 8 = 7) (prev : (Vec F S1x256x512 .f32 × Vec F S8x256x1 .f32 × Vec F S8x256x1 .f32 × Vec F S8x256x64 .f32 × Vec F S8x256x64 .bf16)) : (Vec F S1x256x512 .f32 × Vec F S8x256x1 .f32 × Vec F S8x256x1 .f32 × Vec F S8x256x64 .f32 × Vec F S8x256x64 .bf16) :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   prev.2.2.2.2)

/-- What the output buffer and the four scratches hold after the body at position `n`: the case the position's key-block
    coordinate selects, run on the point's blocks and on what position `n - 1` left. -/
def outsAt1 (c : Dev nD) : (n : ℕ) → n < cfg1.N → (Vec F S1x256x512 .f32 × Vec F S8x256x1 .f32 × Vec F S8x256x1 .f32 × Vec F S8x256x64 .f32 × Vec F S8x256x64 .bf16)
  | 0, hn => stepA V c ⟨0, hn⟩ (Nat.zero_mod 8)
  | n + 1, hn =>
    if h0 : (n + 1) % 8 = 0 then stepA V c ⟨n + 1, hn⟩ h0
    else if h1 : (n + 1) % 8 = 7 then stepC V c ⟨n + 1, hn⟩ h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) :
    outsAt1 V c t.val t.isLt = stepA V c t h0 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h1 : t.val % 8 = 7) :
    outsAt1 V c t.val t.isLt = stepC V c t h1 (outsAt1 V c (t.val - 1) (Nat.lt_of_le_of_lt (Nat.sub_le _ _) t.isLt)) := by
  obtain ⟨n, hn⟩ := t
  cases n with
  | zero => exact (by exfalso; (try dsimp only at h1); omega)
  | succ n => exact (dif_neg (by (try dsimp only at h1); omega)).trans ((dif_pos h1).trans rfl)

/-- The launch's invariant before position `n`: before the first point every scratch at anything; afterwards the four
    scratches at what the point before left in them, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-- The launch's proof data on core `c`: the arrays as found; after a point the inputs' buffers at their blocks and the
    output's at the state's first component; the invariant names the carried scratches; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the key-block coordinate says which case the point is in;
    the invariant hands the body the four scratches at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · -- a first key block
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => by have := (hcond1_1 t).mp h; omega)) (noFlush1_5 t (fun h => by have := (hcond1_1 t).mp h; omega))]
    rw [outsAt1_A V c t h0]
    unfold stepA sout1_A_0 sout1_A_1 sout1_A_2 sout1_A_3; (try dsimp only)
    by_cases hz : t.val = 0
    ·
      rw [PhiS1_castSucc V c t, PhiS1_zero V c _ _ hz, PhiA1_eq]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 8 = 7
    · -- a last key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h1]
      unfold stepC out1_C_5 sout1_C_0 sout1_C_1 sout1_C_2; (try dsimp only)
      have hz : t.val ≠ 0 := by omega
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => by have := (hcond1_0 t).mp h; omega) ((hcond1_1 t).mpr h1) (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ _ _)
    · -- a middle key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold stepB sout1_B_0 sout1_B_1 sout1_B_2; (try dsimp only)
      have hz : t.val ≠ 0 := by omega
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- Before the first point the invariant is the scoped rest at anything. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the named contents of the scratches may be forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, HS0, HS1, HS2, HS3⟩, Hg⟩
  isplitl [Hr0 Hr1 Hr2 Hr3 Hr4 HS0 HS1 HS2 HS3]
  ·
    isplitl [Hr0]; · iexact Hr0
    isplitl [Hr1]; · iexact Hr1
    isplitl [Hr2]; · iexact Hr2
    isplitl [Hr3]; · iexact Hr3
    isplitl [Hr4]; · iexact Hr4
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 256 := N_1; omega)

end Steps

end Cert.Kernel.Hand

end
-- ==== Proof.Kernel.Run.lean ====
/-
  The whole program as a list of four segments: the host operations that cast the weights and flatten the input, the
  projection launch, the host operations that split the projected rows into queries, keys and values, the attention launch.
  The buffers' contents at the five boundaries are a fold from the launch memory: a host stretch applies its operations, a
  launch leaves each of its arrays at what its write-backs make of it and every other buffer as it was. Every weakly fair
  execution terminates and ends with every unscoped buffer at the last boundary's contents; no segment writes an argument.
-/
import proofs.«161986_j996432413274_2_alg».proof.Proof.Kernel.R0
import proofs.«161986_j996432413274_2_alg».proof.Proof.Kernel.R1Frame
import proofs.«161986_j996432413274_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention launch: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No segment writes an argument: no host operation's result is one, and no launch has one among its arrays -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V3 m ρ) c 0 (Nat.zero_le _) from rfl, PhiS1_zero (V3 m ρ) c 0 _ rfl]; unfold Pipeline.ΦA
    iintro ⟨Hp, -, Hr⟩
    isplitl [Hr]; · iexact Hr
    iexact Hp
  hout c := by
    rw [Pipeline.ownSems0_none]
    exact (hout1 (V3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and ends
    with every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.KernelIdeal.R0.lean ====
/-
  The first launch: the projection of a block of 1024 rows of the flattened input onto the 1536 projection rows.
  One grid point reads its block of rows and the whole weight matrix and stores the whole 1024 x 1536 block of products;
  nothing is kept between points. Stated at any float instance and at any contents `V` of the buffers when the launch
  is entered: what the output block holds after a point (`out0_2`), the body's triple, the launch's proof data and its
  body obligation.
-/
import proofs.«161986_j996432413274_2_alg».proof.Proof.Gen.KernelIdeal.Launch
import proofs.«161986_j996432413274_2_alg».proof.Proof.Gen.KernelIdeal.Skeleton
import proofs.«161986_j996432413274_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds the point's block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point: fetched once, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x512 := Rect.unit (s := S1024x512) ![0, 0] S1024x512.size inb_S1024x512_S1024x512_0_0
abbrev r0_1 : Rect S1536x512 := Rect.unit (s := S1536x512) ![0, 0] S1536x512.size inb_S1536x512_S1536x512_0_0
abbrev r0_2 : Rect S1024x1536 := Rect.unit (s := S1024x1536) ![0, 0] S1024x1536.size inb_S1024x1536_S1024x1536_0_0

/-- The output block after the body: its one whole-block store of the products of the row block with the weights. -/
def out0_2 (x0 : Vec F S1024x512 .f32) (x1 : Vec F S1536x512 .bf16) : Vec F S1024x1536 .bf16 :=
  View.canon [⟨r0_2, k0_pay1 (View.ld x0 r0_0) (View.ld x1 r0_1)⟩]

/-- The one store is of the whole block. -/
theorem cover0_2 (p0 : Vec F S1024x1536 .bf16) (y : S1024x1536.Idx) :
    ∃ pc ∈ ([⟨r0_2, p0⟩] : List (View.Piece (Elt F) S1024x1536 .bf16)), y ∈ pc.1.set :=
  View.cover_of_tiled [⟨r0_2, p0⟩] S1024x1536.size (by rfl) y

set_option maxHeartbeats 1000000 in
/-- The body on whole staging buffers, the inputs' at their contents and the output's at anything, runs to the
    continuation with the inputs' as they were and the output's at `out0_2` of them. -/
theorem sound_kernel0 (c : Dev nD) (E : Set ℕ) (i : grid0.Coords)
    (arg1 : Memref sig .tc .vmem S1024x512 .f32) (harg1 : arg1.IsWhole) (arg2 : Memref sig .tc .vmem S1536x512 .bf16) (harg2 : arg2.IsWhole)
    (arg3 : Memref sig .tc .vmem S1024x1536 .bf16) (harg3 : arg3.IsWhole)
    (x0 : Vec F S1024x512 .f32) (x1 : Vec F S1536x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after a point the inputs' buffers at their blocks and the
    output's at `out0_2` of them; the invariant is the scoped rest untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KernelIdeal.R1Runs.lean ====
/-
  The second launch, the attention with its output projection, at one grid point (batch, block of 256 query rows, block of
  512 key rows): what every case of the body shares. The body branches twice on the key-block coordinate: at the first key
  block it resets the running maximum, the running row sum and the accumulator and caches the scaled queries; at the last it
  divides the accumulator by the row sum, projects and stores the output block. With eight key blocks the two never meet, so a
  point is in one of three cases. Four scratch buffers carry the state from a point to the next; the output window is
  written back only at the last key block.
-/
import proofs.«161986_j996432413274_2_alg».proof.Proof.Gen.KernelIdeal.Launch
import proofs.«161986_j996432413274_2_alg».proof.Proof.Gen.KernelIdeal.Skeleton
import proofs.«161986_j996432413274_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input's staging buffer holds the point's block at every point, fetched there or not (an input that is not
    fetched at a point has the block index of the point before). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branches, decided over the grid -/

/-- The first branch is taken: the key-block coordinate is zero. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch is taken: the key-block coordinate is the last, seven. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last key block the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last key block it is live. -/
theorem liveAt1_5 : ∀ t : Fin cfg1.N, cond1_1 (grid1.coords t) → cfg1.idle 5 (grid1.coords t) = false := by decide +kernel

/-! ## The memrefs the body is called with -/

abbrev VO1_5 : View sig .tc .vmem S1x256x512 .f32 := (Memref.whole cc1_stg5_0 : Memref sig .tc .vmem S1x256x512 .f32).view
abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x512 .f32 := win1_5.stage (cfg1.slots t 5)
abbrev hs1_5 (t : Fin cfg1.N) : (ms1_5 t).IsWhole := hstage1_5 ((cfg1.slots t 5).cast nbuf1_5)
/-- The four scratch buffers: the running maximum, the running row sum, the accumulator, the cached scaled queries. -/
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x64 .f32 := Memref.whole cc1_scratch2
abbrev scM1_3 : Memref sig .tc .vmem S8x256x64 .bf16 := Memref.whole cc1_scratch3
abbrev VS1_0 : View sig .tc .vmem S8x256x1 .f32 := scM1_0.view
abbrev VS1_1 : View sig .tc .vmem S8x256x1 .f32 := scM1_1.view
abbrev VS1_2 : View sig .tc .vmem S8x256x64 .f32 := scM1_2.view
abbrev VS1_3 : View sig .tc .vmem S8x256x64 .bf16 := scM1_3.view

/-- The scoped rest of the second launch with the four scratch buffers as memrefs owned at some contents; the first
    launch's staging buffers ride along at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KernelIdeal.R1RunA.lean ====
/-
  The attention body at the first key block of a query block: the first branch is taken, the second is not. Whatever the
  four scratch buffers held is overwritten: the running maximum by minus infinity, the row sum and the accumulator by zero,
  the cache by the scaled queries; the body then makes its first update of the three state buffers. The idle output buffer
  is handed back as it was.
-/
import proofs.«161986_j996432413274_2_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the four scratches at such a point, with the proof that the body runs. -/
noncomputable def kernelRun1_A (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    Σ' (LS0 : List (View.Piece (Elt F) S8x256x1 .f32)) (LS1 : List (View.Piece (Elt F) S8x256x1 .f32)) (LS2 : List (View.Piece (Elt F) S8x256x64 .f32)), { LS3 : List (View.Piece (Elt F) S8x256x64 .bf16) //
      ∀ (xi5 : Vec F S1x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; iexact HS3

end Cert.KernelIdeal.Hand

end
-- ==== Proof.KernelIdeal.R1RunB.lean ====
/-
  The attention body at a point strictly between the first and the last key block: neither branch is taken. It reads the
  carried running maximum, row sum, accumulator and cached queries, and stores the new maximum, row sum and accumulator; the
  cached queries and the idle output buffer are handed back as they were.
-/
import proofs.«161986_j996432413274_2_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three state scratches at such a point, with the proof that the body runs. -/
noncomputable def kernelRun1_B (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    Σ' (LS0 : List (View.Piece (Elt F) S8x256x1 .f32)) (LS1 : List (View.Piece (Elt F) S8x256x1 .f32)), { LS2 : List (View.Piece (Elt F) S8x256x64 .f32) //
      ∀ (xi5 : Vec F S1x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KernelIdeal.R1RunC.lean ====
/-
  The attention body at the last key block of a query block: the first branch is not taken, the second is. After the last
  update of the three state buffers the body divides the accumulator by the row sum, lays the heads side by side, multiplies by
  the output weights, adds the bias and stores the whole output block, whatever the output buffer held before.
-/
import proofs.«161986_j996432413274_2_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and the three state scratches at such a point, with the proof
    that the body runs. -/
noncomputable def kernelRun1_C (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    Σ' (L5 : List (View.Piece (Elt F) S1x256x512 .f32)) (LS0 : List (View.Piece (Elt F) S8x256x1 .f32)) (LS1 : List (View.Piece (Elt F) S8x256x1 .f32)), { LS2 : List (View.Piece (Elt F) S8x256x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg12.read_unread _
    iexact HS3

end Cert.KernelIdeal.Hand

end
-- ==== Proof.KernelIdeal.R1Frame.lean ====
/-
  The second launch's proof data. Per case of the body: that its stores tile each scratch (and, at the last key block, the
  output buffer) and what they leave there. Then the state after each grid point, by recursion over the points in the
  pipeline's order: the point's case applied to the point's blocks and to the state the point before left. The invariant of
  the launch names that state, so that a middle or last key block finds the running maximum, row sum, accumulator and cached
  queries its query block's earlier key blocks left. Last, the body obligation, by cases on the key-block coordinate.
-/
import proofs.«161986_j996432413274_2_alg».proof.Proof.KernelIdeal.R1RunA
import proofs.«161986_j996432413274_2_alg».proof.Proof.KernelIdeal.R1RunB
import proofs.«161986_j996432413274_2_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores of this case into scratch 0 tile it. -/
theorem scover1_A_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).1 S8x256x1.size (by sl_kernel_rfl) y

/-- What this case leaves in scratch 0: its stores read back. -/
def sout1_A_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4).1)

/-- The stores of this case into scratch 1 tile it. -/
theorem scover1_A_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.1 S8x256x1.size (by sl_kernel_rfl) y

/-- What this case leaves in scratch 1: its stores read back. -/
def sout1_A_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4).2.1)

/-- The stores of this case into scratch 2 tile it. -/
theorem scover1_A_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.1 S8x256x64.size (by sl_kernel_rfl) y

/-- What this case leaves in scratch 2: its stores read back. -/
def sout1_A_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x64 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4).2.2.1)

/-- The stores of this case into scratch 3 tile it. -/
theorem scover1_A_3 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (y : S8x256x64.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4).2.2.2.1 S8x256x64.size (by sl_kernel_rfl) y

/-- What this case leaves in scratch 3: its stores read back. -/
def sout1_A_3 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) : Vec F S8x256x64 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 arg12 harg12 hc0 hc1 x0 x1 x2 x3 x4).2.2.2.1)

/-- The stores of this case into scratch 0 tile it. -/
theorem scover1_B_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1 S8x256x1.size (by sl_kernel_rfl) y

/-- What this case leaves in scratch 0: its stores read back. -/
def sout1_B_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The stores of this case into scratch 1 tile it. -/
theorem scover1_B_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 S8x256x1.size (by sl_kernel_rfl) y

/-- What this case leaves in scratch 1: its stores read back. -/
def sout1_B_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The stores of this case into scratch 2 tile it. -/
theorem scover1_B_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x64.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S8x256x64.size (by sl_kernel_rfl) y

/-- What this case leaves in scratch 2: its stores read back. -/
def sout1_B_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x64 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The stores of this case into scratch 0 tile it. -/
theorem scover1_C_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1 S8x256x1.size (by sl_kernel_rfl) y

/-- What this case leaves in scratch 0: its stores read back. -/
def sout1_C_0 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.1)

/-- The stores of this case into scratch 1 tile it. -/
theorem scover1_C_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1 S8x256x1.size (by sl_kernel_rfl) y

/-- What this case leaves in scratch 1: its stores read back. -/
def sout1_C_1 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.1)

/-- The stores of this case into scratch 2 tile it. -/
theorem scover1_C_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S8x256x64.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1 S8x256x64.size (by sl_kernel_rfl) y

/-- What this case leaves in scratch 2: its stores read back. -/
def sout1_C_2 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S8x256x64 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).2.2.2.1)

/-- At the last key block the one store into the output buffer is of the whole block. -/
theorem cover1_C_5 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) (y : S1x256x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1 S1x256x512.size (by sl_kernel_rfl) y

/-- What the last key block leaves in the output buffer. -/
def out1_C_5 (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) : Vec F S1x256x512 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 arg12 harg12 hc0 hc1 x0 x1 x2 x3 x4 xs0 xs1 xs2 xs3).1)

/-- The idle output buffer's place in the state: nothing consults it (the window is neither written back at such a point
    nor read at the next). -/
def outIdle1_5 : Vec F S1x256x512 .f32 := VO1_5.read (Elt F) (VO1_5.writes (Elt F) VO1_5.junk [])

section Steps
variable (V : (c : Dev nD) → (b : Ref sig .tc) → Buf (Elt F) ((c : Thread nD τ).loc b))

/-- The state after a first key block: the output buffer idle, the four scratches at what the reset and the first update leave. -/
def stepA (c : Dev nD) (t : Fin cfg1.N) (h0 : t.val % 8 = 0) : (Vec F S1x256x512 .f32 × Vec F S8x256x1 .f32 × Vec F S8x256x1 .f32 × Vec F S8x256x64 .f32 × Vec F S8x256x64 .bf16) :=
  (outIdle1_5,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t),
   sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => by have := (hcond1_1 t).mp h; omega) (iblk1 V c 0 t) (iblk1 V c 1 t) (iblk1 V c 2 t) (iblk1 V c 3 t) (iblk1 V c 4 t))

/-- The state after a middle key block, from the state the point before left: the three state scratches updated, the cached
    queries as they were. -/
def stepB (c : Dev nD) (t : Fin cfg1.N) (h0 : ¬t.val % 8 = 0) (h1 : ¬t.val % 8 = 7) (prev : (Vec F S1x256x512 .f32 × Vec F S8x256x1 .f32 × Vec F S8x256x1 .f32 × Vec F S8x256x64 .f32 × Vec F S8x256x64 .bf16)) : (Vec F S1x256x512 .f32 × Vec F S8x256x1 .f32 × Vec F S8x256x1 .f32 × Vec F S8x256x64 .f32 × Vec F S8x256x64 .bf16) :=
  (outIdle1_5,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) prev.2.1 prev.2.2.1 prev.2.2.2.1 prev.2.2.2.2,
   prev.2.2.2.2)

/-- The state after a last key block, from the state the point before left: the output block stored, the three state
    scratches updated, the cached queries as they were. -/
def stepC (c : Dev nD) (t : Fin cfg1.N) (h1 : t.val % 8 = 7) (prev : (Vec F S1x256x512 .f32 × Vec F S8x256x1 .f32 × Vec F S8x256x1 .f32 × Vec F S8x256x64 .f32 × Vec F S8x256x64 .bf16)) : (Vec F S1x256x512 .f32 × Vec F S8x256x1 .f32 × Vec F S8x256x1 .f32 × Vec F S8x256x64 .f32 × Vec F S8x256x64 .bf16) :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => by have := (hcond1_0 t).mp h; omega) ((hcond1_1 t).mpr h1) (iblk1 V c 0 t) (iblk1 V c 1 t) (iblk1 V c 2 t) (iblk1 V c 3 t) (iblk1 V c 4 t) prev.2.1 prev.2.2.1 prev.2.2.2.1 prev.2.2.2.2,
   prev.2.2.2.2)

/-- What the output buffer and the four scratches hold after the body at position `n`: the case the position's key-block
    coordinate selects, run on the point's blocks and on what position `n - 1` left. -/
def outsAt1 (c : Dev nD) : (n : ℕ) → n < cfg1.N → (Vec F S1x256x512 .f32 × Vec F S8x256x1 .f32 × Vec F S8x256x1 .f32 × Vec F S8x256x64 .f32 × Vec F S8x256x64 .bf16)
  | 0, hn => stepA V c ⟨0, hn⟩ (Nat.zero_mod 8)
  | n + 1, hn =>
    if h0 : (n + 1) % 8 = 0 then stepA V c ⟨n + 1, hn⟩ h0
    else if h1 : (n + 1) % 8 = 7 then stepC V c ⟨n + 1, hn⟩ h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 8 = 0) :
    outsAt1 V c t.val t.isLt = stepA V c t h0 := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = stepB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h1 : t.val % 8 = 7) :
    outsAt1 V c t.val t.isLt = stepC V c t h1 (outsAt1 V c (t.val - 1) (Nat.lt_of_le_of_lt (Nat.sub_le _ _) t.isLt)) := by
  obtain ⟨n, hn⟩ := t
  cases n with
  | zero => exact (by exfalso; (try dsimp only at h1); omega)
  | succ n => exact (dif_neg (by (try dsimp only at h1); omega)).trans ((dif_pos h1).trans rfl)

/-- The launch's invariant before position `n`: before the first point every scratch at anything; afterwards the four
    scratches at what the point before left in them, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-- The launch's proof data on core `c`: the arrays as found; after a point the inputs' buffers at their blocks and the
    output's at the state's first component; the invariant names the carried scratches; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the key-block coordinate says which case the point is in;
    the invariant hands the body the four scratches at what the point before left (at anything before the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 8 = 0
  · -- a first key block
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5 t (fun h => by have := (hcond1_1 t).mp h; omega)) (noFlush1_5 t (fun h => by have := (hcond1_1 t).mp h; omega))]
    rw [outsAt1_A V c t h0]
    unfold stepA sout1_A_0 sout1_A_1 sout1_A_2 sout1_A_3; (try dsimp only)
    by_cases hz : t.val = 0
    ·
      rw [PhiS1_castSucc V c t, PhiS1_zero V c _ _ hz, PhiA1_eq]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    ·
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ _ _ ((hcond1_0 t).mpr h0) (fun h => by have := (hcond1_1 t).mp h; omega) (iblk1 V c 0 t) (iblk1 V c 1 t) (iblk1 V c 2 t) (iblk1 V c 3 t) (iblk1 V c 4 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 8 = 7
    · -- a last key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h1]
      unfold stepC out1_C_5 sout1_C_0 sout1_C_1 sout1_C_2; (try dsimp only)
      have hz : t.val ≠ 0 := by omega
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ _ _ (fun h => by have := (hcond1_0 t).mp h; omega) ((hcond1_1 t).mpr h1) (iblk1 V c 0 t) (iblk1 V c 1 t) (iblk1 V c 2 t) (iblk1 V c 3 t) (iblk1 V c 4 t) _ _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _ _ _ _ _ _ _ _ _ _)
    · -- a middle key block
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold stepB sout1_B_0 sout1_B_1 sout1_B_2; (try dsimp only)
      have hz : t.val ≠ 0 := by omega
      rw [PhiS1_castSucc V c t, PhiS1_pos V c _ _ hz]
      iintro ⟨⟨⟨Hr0, Hr1, Hr2, Hr3, Hr4, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [Hr0 Hr1 Hr2 Hr3 Hr4 HS0 HS1 HS2 HS3 Hg]
      · isplitl [Hr0 Hr1 Hr2 Hr3 Hr4 HS0 HS1 HS2 HS3]
        ·
          isplitl [Hr0]; · iexact Hr0
          isplitl [Hr1]; · iexact Hr1
          isplitl [Hr2]; · iexact Hr2
          isplitl [Hr3]; · iexact Hr3
          isplitl [Hr4]; · iexact Hr4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- Before the first point the invariant is the scoped rest at anything. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the named contents of the scratches may be forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr0, Hr1, Hr2, Hr3, Hr4, HS0, HS1, HS2, HS3⟩, Hg⟩
  isplitl [Hr0 Hr1 Hr2 Hr3 Hr4 HS0 HS1 HS2 HS3]
  ·
    isplitl [Hr0]; · iexact Hr0
    isplitl [Hr1]; · iexact Hr1
    isplitl [Hr2]; · iexact Hr2
    isplitl [Hr3]; · iexact Hr3
    isplitl [Hr4]; · iexact Hr4
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 256 := N_1; omega)

end Steps

end Cert.KernelIdeal.Hand

end
-- ==== Proof.KernelIdeal.Run.lean ====
/-
  The whole program as a list of four segments: the host operations that cast the weights and flatten the input, the
  projection launch, the host operations that split the projected rows into queries, keys and values, the attention launch.
  The buffers' contents at the five boundaries are a fold from the launch memory: a host stretch applies its operations, a
  launch leaves each of its arrays at what its write-backs make of it and every other buffer as it was. Every weakly fair
  execution terminates and ends with every unscoped buffer at the last boundary's contents; no segment writes an argument.
-/
import proofs.«161986_j996432413274_2_alg».proof.Proof.KernelIdeal.R0
import proofs.«161986_j996432413274_2_alg».proof.Proof.KernelIdeal.R1Frame
import proofs.«161986_j996432413274_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention launch: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No segment writes an argument: no host operation's result is one, and no launch has one among its arrays -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V3 m ρ) c 0 (Nat.zero_le _) from rfl, PhiS1_zero (V3 m ρ) c 0 _ rfl]; unfold Pipeline.ΦA
    iintro ⟨Hp, -, Hr⟩
    isplitl [Hr]; · iexact Hr
    iexact Hp
  hout c := by
    rw [Pipeline.ownSems0_none]
    exact (hout1 (V3 m ρ) c).trans (by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and ends
    with every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.KernelIdeal.K1Pieces.lean ====
/-
  What each case of the attention body leaves, as pure functions of what the point loads. One key block updates the state in
  four steps, each a payload of the printed body: the new running maximum (the old one against the block's greatest score), the
  new row sum (the old one rescaled plus the block's exponentials), the new accumulator (the old one rescaled plus the
  exponentials times the values), and, at the last key block, the output block (the accumulator over the row sum, heads side by
  side, times the output weights, plus the bias). At a first key block the old state is the reset one and the cached queries
  are the point's own.
-/
import proofs.«161986_j996432413274_2_alg».proof.Proof.KernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz2 : (![0, 0] : Fin 2 → Nat) = fun _ => 0 := funext fun a => by fin_cases a <;> rfl

/-- The new running maximum, from the key block, the cached queries and the old maximum. -/
def updM (x1 : Vec F S1x512x512 .bf16) (qb : Vec F S8x256x64 .bf16) (mo : Vec F S8x256x1 .f32) : Vec F S8x256x1 .f32 :=
  k1_pay3 (k1_pay11 x1 qb mo)
/-- The new row sum. -/
def updL (x1 : Vec F S1x512x512 .bf16) (qb : Vec F S8x256x64 .bf16) (mo lo : Vec F S8x256x1 .f32) : Vec F S8x256x1 .f32 :=
  k1_pay1 (k1_pay14 x1 qb mo mo lo)
/-- The new accumulator. -/
def updAcc (x1 x2 : Vec F S1x512x512 .bf16) (qb : Vec F S8x256x64 .bf16) (mo : Vec F S8x256x1 .f32) (ao : Vec F S8x256x64 .f32) : Vec F S8x256x64 .f32 :=
  k1_pay2 (k1_pay9 x2) (k1_pay12 x1 qb mo mo) (k1_pay13 x1 qb mo) ao
/-- The output block, from the state after the last update. -/
def outBlk (acc : Vec F S8x256x64 .f32) (l : Vec F S8x256x1 .f32) (x3 : Vec F S512x512 .bf16) (x4 : Vec F S1x512 .f32) : Vec F S1x256x512 .f32 :=
  k1_pay4 acc l x3 x4

/-! ## A first key block -/
theorem sout1_A_3_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    sout1_A_3 c i arg3 harg3 arg4 harg4 arg5 harg5 arg6 harg6 arg7 harg7 arg8 harg8 arg9 harg9 arg10 harg10 arg11 harg11 arg12 harg12 hc0 hc1 x0 x1 x2 x3 x4 = k1_pay8 x0 := by
  unfold sout1_A_3
  rw [View.read_writes_eq_canon _ _ _ (scover1_A_3 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_A_0_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    sout1_A_0 c i arg3 harg3 arg4 harg4 arg5 harg5 arg6 harg6 arg7 harg7 arg8 harg8 arg9 harg9 arg10 harg10 arg11 harg11 arg12 harg12 hc0 hc1 x0 x1 x2 x3 x4 = updM x1 (k1_pay8 x0) k1_pay5 := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_A_1_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    sout1_A_1 c i arg3 harg3 arg4 harg4 arg5 harg5 arg6 harg6 arg7 harg7 arg8 harg8 arg9 harg9 arg10 harg10 arg11 harg11 arg12 harg12 hc0 hc1 x0 x1 x2 x3 x4 = updL x1 (k1_pay8 x0) k1_pay5 k1_pay6 := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_A_2_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) :
    sout1_A_2 c i arg3 harg3 arg4 harg4 arg5 harg5 arg6 harg6 arg7 harg7 arg8 harg8 arg9 harg9 arg10 harg10 arg11 harg11 arg12 harg12 hc0 hc1 x0 x1 x2 x3 x4 = updAcc x1 x2 (k1_pay8 x0) k1_pay5 k1_pay7 := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

/-! ## A middle key block -/
theorem sout1_B_0_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_B_0 c i arg3 harg3 arg4 harg4 arg5 harg5 arg6 harg6 arg7 harg7 arg8 harg8 arg9 harg9 arg10 harg10 arg11 harg11 arg12 harg12 hc0 hc1 x0 x1 x2 x3 x4 xs0 xs1 xs2 xs3 = updM x1 xs3 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_B_1_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = updL x1 xs3 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_B_2_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : ¬cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = updAcc x1 x2 xs3 xs0 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_B
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

/-! ## A last key block -/
theorem sout1_C_0_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_C_0 c i arg3 harg3 arg4 harg4 arg5 harg5 arg6 harg6 arg7 harg7 arg8 harg8 arg9 harg9 arg10 harg10 arg11 harg11 arg12 harg12 hc0 hc1 x0 x1 x2 x3 x4 xs0 xs1 xs2 xs3 = updM x1 xs3 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_C_1_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3 = updL x1 xs3 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem sout1_C_2_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    sout1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3 = updAcc x1 x2 xs3 xs0 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

theorem out1_C_5_eq (c : Dev nD) (i : grid1.Coords) (arg3 : Memref sig .tc .vmem S1x256x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x256x512 .f32) (harg8 : arg8.IsWhole) (arg9 : Memref sig .tc .vmem S8x256x1 .f32) (harg9 : arg9.IsWhole) (arg10 : Memref sig .tc .vmem S8x256x1 .f32) (harg10 : arg10.IsWhole) (arg11 : Memref sig .tc .vmem S8x256x64 .f32) (harg11 : arg11.IsWhole) (arg12 : Memref sig .tc .vmem S8x256x64 .bf16) (harg12 : arg12.IsWhole) (hc0 : ¬cond1_0 i) (hc1 : cond1_1 i)
    (x0 : Vec F S1x256x512 .bf16) (x1 : Vec F S1x512x512 .bf16) (x2 : Vec F S1x512x512 .bf16) (x3 : Vec F S512x512 .bf16) (x4 : Vec F S1x512 .f32) (xs0 : Vec F S8x256x1 .f32) (xs1 : Vec F S8x256x1 .f32) (xs2 : Vec F S8x256x64 .f32) (xs3 : Vec F S8x256x64 .bf16) :
    out1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3
      = outBlk (updAcc x1 x2 xs3 xs0 xs2) (updL x1 xs3 xs0 xs1) x3 x4 := by
  unfold out1_C_5
  rw [View.read_writes_eq_canon _ _ _ (cover1_C_5 c i arg3 harg3 arg4 harg4 arg5 harg5 arg6 harg6 arg7 harg7 arg8 harg8 arg9 harg9 arg10 harg10 arg11 harg11 arg12 harg12 hc0 hc1 x0 x1 x2 x3 x4 xs0 xs1 xs2 xs3)]
  unfold kernelRun1_C
  dsimp only
  sl_unfold_words
  rw [View.canon_unit_zero hz3]
  simp only [View.readCov_unit_zero (S := S8x256x1) _ hz3, View.readCov_unit_zero (S := S8x256x64) _ hz3, View.readAt_eq_ld, harg3.read_unread, harg4.read_unread, harg5.read_unread, harg6.read_unread, harg7.read_unread, harg9.read_unread, harg10.read_unread, harg11.read_unread, harg12.read_unread, View.ld_unit_zero (S := S1x256x512) hz3, View.ld_unit_zero (S := S1x512x512) hz3, View.ld_unit_zero (S := S8x256x1) hz3, View.ld_unit_zero (S := S8x256x64) hz3, View.ld_unit_zero (S := S512x512) hz2, View.ld_unit_zero (S := S1x512) hz2]
  try rfl

end Cert.KernelIdeal.Hand

end
-- ==== Proof.Val.Layout.lean ====
/-
  Layout operations of the attention body read at an index. A row of 512 features is eight heads of 64: feature j is entry
  j mod 64 of head j div 64. The body splits rows into heads, swaps the row and head axes, keeps a reduced axis as a unit axis
  and broadcasts along it. Each lemma says which entry of the operand an entry of the result is.
-/
import Idealize.ShloMosaic.Lib.Pipeline.Value
import Idealize.ShloMosaic.Lib.ValueIdx
import Idealize.ShloMosaic.Lib.ValueLayout

noncomputable section

namespace Cert.AttnLayout

open Idealize.ShloMosaic Idealize.ShloMosaic.ValueIdx

variable {α : Type}

/-- Rows of 512 features split into 8 heads of 64: entry (i, p, q) is feature `64 p + q` of row `i`. -/
theorem split_apply {a : ℕ} (x : (⟨2, ![a, 512]⟩ : Shape).Idx → α)
    (h : (⟨2, ![a, 512]⟩ : Shape).ShapeCasts ⟨3, ![a, 8, 64]⟩) (i : Fin a) (p : Fin 8) (q : Fin 64) (j : Fin 512)
    (hj : j.val = p.val * 64 + q.val) :
    shapeCast ⟨3, ![a, 8, 64]⟩ x h (ix3 i p q) = x (ix2 i j) :=
  shapeCast_apply x h _ _ (by
    rw [Shape.rowMajor_val_two, Shape.rowMajor_val_three]
    show i.val * 512 + j.val = (i.val * 8 + p.val) * 64 + q.val
    omega)

/-- The heads laid side by side again: feature `j` of row `i` is entry (i, j / 64, j % 64). -/
theorem merge_apply {a : ℕ} (x : (⟨3, ![a, 8, 64]⟩ : Shape).Idx → α)
    (h : (⟨3, ![a, 8, 64]⟩ : Shape).ShapeCasts ⟨2, ![a, 512]⟩) (i : Fin a) (j : Fin 512) :
    shapeCast ⟨2, ![a, 512]⟩ x h (ix2 i j)
      = x (ix3 i ⟨j.val / 64, by have := j.isLt; omega⟩ ⟨j.val % 64, by omega⟩) :=
  shapeCast_apply x h _ _ (by
    rw [Shape.rowMajor_val_two, Shape.rowMajor_val_three]
    show (i.val * 8 + j.val / 64) * 64 + j.val % 64 = i.val * 512 + j.val
    omega)

/-- The first two axes swapped. -/
theorem swap01_apply {a b d : ℕ} (x : (⟨3, ![a, b, d]⟩ : Shape).Idx → α)
    (h : (⟨3, ![a, b, d]⟩ : Shape).Transposes [1, 0, 2] ⟨3, ![b, a, d]⟩) (p : Fin b) (i : Fin a) (q : Fin d) :
    transpose ⟨3, ![b, a, d]⟩ [1, 0, 2] x h (ix3 p i q) = x (ix3 i p q) :=
  transpose_apply [1, 0, 2] x h (ix3 p i q) (ix3 i p q) (fun b' => by
    match b' with
    | ⟨0, _⟩ => rfl
    | ⟨1, _⟩ => rfl
    | ⟨2, _⟩ => rfl)

/-- A reduced last axis kept as a unit axis. -/
theorem keep_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    omega)

/-- A unit last axis broadcast along `n` columns. -/
theorem bcast_last_apply {a b n : ℕ} (x : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rfl

/-- A block of `n` rows of 512 features under a unit batch axis, as 8 heads of `n` rows of 64 features. -/
theorem heads_apply {n : ℕ} (x : (⟨3, ![1, n, 512]⟩ : Shape).Idx → α)
    (h1 : (⟨3, ![1, n, 512]⟩ : Shape).ShapeCasts ⟨2, ![n, 512]⟩)
    (h2 : (⟨2, ![n, 512]⟩ : Shape).ShapeCasts ⟨3, ![n, 8, 64]⟩)
    (h3 : (⟨3, ![n, 8, 64]⟩ : Shape).Transposes [1, 0, 2] ⟨3, ![8, n, 64]⟩)
    (hh : Fin 8) (r : Fin n) (d : Fin 64) :
    transpose ⟨3, ![8, n, 64]⟩ [1, 0, 2] (shapeCast ⟨3, ![n, 8, 64]⟩ (shapeCast ⟨2, ![n, 512]⟩ x h1) h2) h3 (ix3 hh r d)
      = x (ix3 (0 : Fin 1) r ⟨hh.val * 64 + d.val, by have := hh.isLt; have := d.isLt; omega⟩) := by
  rw [swap01_apply, split_apply _ h2 r hh d ⟨hh.val * 64 + d.val, by have := hh.isLt; have := d.isLt; omega⟩ rfl,
    shapeCast_1ab_ab_apply]

end Cert.AttnLayout

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.Val.K1Read.lean ====
/-
  The attention body's arithmetic at one entry, on the extended reals. For head h, query row r of the block and key row k of
  the key block: the score is the sum over the head's 64 features of the cached query entry times the key entry; the new running
  maximum is the old one against the greatest score of the block; the rescaling factor and the block's weights are exponentials
  of differences with the new maximum; the new row sum is the rescaled old one plus the weights' sum; the new accumulator entry
  for feature d is the rescaled old one plus the weights times the value entries. The cached query entry is the query entry
  times the float 1/8. The output block's entry (r, e) is the sum over the 512 features (head and feature side by side) of the
  accumulator over the row sum times the output weight, plus the bias.
-/
import proofs.«161986_j996432413274_2_alg».proof.Proof.KernelIdeal.K1Pieces
import proofs.«161986_j996432413274_2_alg».proof.Proof.Val.Layout
import proofs.«161986_j996432413274_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnLayout

theorem lhs_d1_0 (i : S8x256x512.Idx) (q : dot_S8x256x64_S8x512x64_S8x256x512_2_2_1_1_0_0.contr.Idx) :
    (dot_S8x256x64_S8x512x64_S8x256x512_2_2_1_1_0_0.lhsIdx i q 0).val = (i 0).val := by
  unfold DotDims.lhsIdx
  rw [dif_pos (show (0 : Fin S8x256x64.rank) ∈ dot_S8x256x64_S8x512x64_S8x256x512_2_2_1_1_0_0.lhsBatch by decide)]
  rfl
theorem lhs_d1_1 (i : S8x256x512.Idx) (q : dot_S8x256x64_S8x512x64_S8x256x512_2_2_1_1_0_0.contr.Idx) :
    (dot_S8x256x64_S8x512x64_S8x256x512_2_2_1_1_0_0.lhsIdx i q 1).val = (i 1).val := by
  unfold DotDims.lhsIdx
  rw [dif_neg (show ¬(1 : Fin S8x256x64.rank) ∈ dot_S8x256x64_S8x512x64_S8x256x512_2_2_1_1_0_0.lhsBatch by decide), dif_pos (show (1 : Fin S8x256x64.rank) ∈ dot_S8x256x64_S8x512x64_S8x256x512_2_2_1_1_0_0.lhsNonContracting by decide)]
  rfl
theorem lhs_d1_2 (i : S8x256x512.Idx) (q : dot_S8x256x64_S8x512x64_S8x256x512_2_2_1_1_0_0.contr.Idx) :
    (dot_S8x256x64_S8x512x64_S8x256x512_2_2_1_1_0_0.lhsIdx i q 2).val = (q ⟨0, by decide⟩).val :=
  dot_S8x256x64_S8x512x64_S8x256x512_2_2_1_1_0_0.lhsIdx_val_of_single rfl i q
theorem rhs_d1_0 (i : S8x256x512.Idx) (q : dot_S8x256x64_S8x512x64_S8x256x512_2_2_1_1_0_0.contr.Idx) :
    (dot_S8x256x64_S8x512x64_S8x256x512_2_2_1_1_0_0.rhsIdx i q 0).val = (i 0).val := by
  unfold DotDims.rhsIdx
  rw [dif_pos (show (0 : Fin S8x512x64.rank) ∈ dot_S8x256x64_S8x512x64_S8x256x512_2_2_1_1_0_0.rhsBatch by decide)]
  rfl
theorem rhs_d1_1 (i : S8x256x512.Idx) (q : dot_S8x256x64_S8x512x64_S8x256x512_2_2_1_1_0_0.contr.Idx) :
    (dot_S8x256x64_S8x512x64_S8x256x512_2_2_1_1_0_0.rhsIdx i q 1).val = (i 2).val := by
  unfold DotDims.rhsIdx
  rw [dif_neg (show ¬(1 : Fin S8x512x64.rank) ∈ dot_S8x256x64_S8x512x64_S8x256x512_2_2_1_1_0_0.rhsBatch by decide), dif_pos (show (1 : Fin S8x512x64.rank) ∈ dot_S8x256x64_S8x512x64_S8x256x512_2_2_1_1_0_0.rhsNonContracting by decide)]
  rfl
theorem rhs_d1_2 (i : S8x256x512.Idx) (q : dot_S8x256x64_S8x512x64_S8x256x512_2_2_1_1_0_0.contr.Idx) :
    (dot_S8x256x64_S8x512x64_S8x256x512_2_2_1_1_0_0.rhsIdx i q 2).val = (q ⟨0, by decide⟩).val :=
  dot_S8x256x64_S8x512x64_S8x256x512_2_2_1_1_0_0.rhsIdx_val_of_single rfl i q

theorem lhs_d2_0 (i : S8x256x64.Idx) (q : dot_S8x256x512_S8x512x64_S8x256x64_2_1_1_2_0_0.contr.Idx) :
    (dot_S8x256x512_S8x512x64_S8x256x64_2_1_1_2_0_0.lhsIdx i q 0).val = (i 0).val := by
  unfold DotDims.lhsIdx
  rw [dif_pos (show (0 : Fin S8x256x512.rank) ∈ dot_S8x256x512_S8x512x64_S8x256x64_2_1_1_2_0_0.lhsBatch by decide)]
  rfl
theorem lhs_d2_1 (i : S8x256x64.Idx) (q : dot_S8x256x512_S8x512x64_S8x256x64_2_1_1_2_0_0.contr.Idx) :
    (dot_S8x256x512_S8x512x64_S8x256x64_2_1_1_2_0_0.lhsIdx i q 1).val = (i 1).val := by
  unfold DotDims.lhsIdx
  rw [dif_neg (show ¬(1 : Fin S8x256x512.rank) ∈ dot_S8x256x512_S8x512x64_S8x256x64_2_1_1_2_0_0.lhsBatch by decide), dif_pos (show (1 : Fin S8x256x512.rank) ∈ dot_S8x256x512_S8x512x64_S8x256x64_2_1_1_2_0_0.lhsNonContracting by decide)]
  rfl
theorem lhs_d2_2 (i : S8x256x64.Idx) (q : dot_S8x256x512_S8x512x64_S8x256x64_2_1_1_2_0_0.contr.Idx) :
    (dot_S8x256x512_S8x512x64_S8x256x64_2_1_1_2_0_0.lhsIdx i q 2).val = (q ⟨0, by decide⟩).val :=
  dot_S8x256x512_S8x512x64_S8x256x64_2_1_1_2_0_0.lhsIdx_val_of_single rfl i q
theorem rhs_d2_0 (i : S8x256x64.Idx) (q : dot_S8x256x512_S8x512x64_S8x256x64_2_1_1_2_0_0.contr.Idx) :
    (dot_S8x256x512_S8x512x64_S8x256x64_2_1_1_2_0_0.rhsIdx i q 0).val = (i 0).val := by
  unfold DotDims.rhsIdx
  rw [dif_pos (show (0 : Fin S8x512x64.rank) ∈ dot_S8x256x512_S8x512x64_S8x256x64_2_1_1_2_0_0.rhsBatch by decide)]
  rfl
theorem rhs_d2_1 (i : S8x256x64.Idx) (q : dot_S8x256x512_S8x512x64_S8x256x64_2_1_1_2_0_0.contr.Idx) :
    (dot_S8x256x512_S8x512x64_S8x256x64_2_1_1_2_0_0.rhsIdx i q 1).val = (q ⟨0, by decide⟩).val :=
  dot_S8x256x512_S8x512x64_S8x256x64_2_1_1_2_0_0.rhsIdx_val_of_single rfl i q
theorem rhs_d2_2 (i : S8x256x64.Idx) (q : dot_S8x256x512_S8x512x64_S8x256x64_2_1_1_2_0_0.contr.Idx) :
    (dot_S8x256x512_S8x512x64_S8x256x64_2_1_1_2_0_0.rhsIdx i q 2).val = (i 2).val := by
  unfold DotDims.rhsIdx
  rw [dif_neg (show ¬(2 : Fin S8x512x64.rank) ∈ dot_S8x256x512_S8x512x64_S8x256x64_2_1_1_2_0_0.rhsBatch by decide), dif_pos (show (2 : Fin S8x512x64.rank) ∈ dot_S8x256x512_S8x512x64_S8x256x64_2_1_1_2_0_0.rhsNonContracting by decide)]
  rfl

theorem lhs_d3_0 (i : S256x512.Idx) (q : dot_S256x512_S512x512_S256x512_1_1_0_0_n_n.contr.Idx) :
    (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
theorem lhs_d3_1 (i : S256x512.Idx) (q : dot_S256x512_S512x512_S256x512_1_1_0_0_n_n.contr.Idx) :
    (dot_S256x512_S512x512_S256x512_1_1_0_0_n_n.lhsIdx i q 1).val = (q ⟨0, by decide⟩).val :=
  dot_S256x512_S512x512_S256x512_1_1_0_0_n_n.lhsIdx_val_of_single rfl i q
theorem rhs_d3_0 (i : S256x512.Idx) (q : dot_S256x512_S512x512_S256x512_1_1_0_0_n_n.contr.Idx) :
    (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl
theorem rhs_d3_1 (i : S256x512.Idx) (q : dot_S256x512_S512x512_S256x512_1_1_0_0_n_n.contr.Idx) :
    (dot_S256x512_S512x512_S256x512_1_1_0_0_n_n.rhsIdx i q 1).val = (q ⟨0, by decide⟩).val :=
  dot_S256x512_S512x512_S256x512_1_1_0_0_n_n.rhsIdx_val_of_single rfl i q

/-- A fold of `max` over `Fin n` re-indexed over `Fin m` for `n = m`. -/
theorem fold_max_cast {n m : ℕ} (h : n = m) (b : EReal) (f : Fin n → EReal) :
    (Finset.univ : Finset (Fin n)).fold max b f = (Finset.univ : Finset (Fin m)).fold max b (fun k => f (Fin.cast h.symm k)) := by
  subst h; rfl

/-- A sum over `Fin n` re-indexed over `Fin m` for `n = m`. -/
theorem sum_cast {n m : ℕ} (h : n = m) (f : Fin n → EReal) : ∑ k, f k = ∑ k : Fin m, f (Fin.cast h.symm k) := by
  subst h; rfl

/-- The reduced index (h, r) with key row `k` put back is (h, r, k). -/
theorem lift3 (h : S8x256x512.Reduces [2] S8x256) (hh : Fin 8) (r : Fin 256) (k : Fin (S8x256x512.size 2)) :
    h.lift (ix2 hh r) k = ix3 hh r (⟨k.val, k.isLt⟩ : Fin 512) := by
  funext c; apply Fin.ext
  fin_cases c <;> rfl

/-- The state buffers' stores are of the value as it is. -/
theorem pay1_id (v : FVec Ideal S8x256x1 .f32) : k1_pay1 v = v := by unfold k1_pay1; exact shapeCast_self _ _
theorem pay3_id (v : FVec Ideal S8x256x1 .f32) : k1_pay3 v = v := by unfold k1_pay3; exact shapeCast_self _ _

/-- The reset values: minus infinity for the maximum, zero for the row sum and the accumulator. -/
theorem pay5_apply (i : S8x256x1.Idx) : k1_pay5 (F := Ideal) i = Ideal.ofBits .f32 0xFF800000#32 := by
  unfold k1_pay5; rw [shapeCast_self]; rfl
theorem pay6_apply (i : S8x256x1.Idx) : k1_pay6 (F := Ideal) i = Ideal.ofBits .f32 0x00000000#32 := by
  unfold k1_pay6; rw [shapeCast_self]; rfl
theorem pay7_apply (i : S8x256x64.Idx) : k1_pay7 (F := Ideal) i = Ideal.ofBits .f32 0x00000000#32 := by
  unfold k1_pay7; rw [shapeCast_self]; rfl

/-- The cached queries: the query block by heads, times 1/8. -/
theorem pay8_apply (x0 : Vec Ideal S1x256x512 .bf16) (hh : Fin 8) (r : Fin 256) (d : Fin 64) :
    k1_pay8 x0 (ix3 hh r d) = x0 (ix3 (0 : Fin 1) r ⟨hh.val * 64 + d.val, by have := hh.isLt; have := d.isLt; omega⟩) * Ideal.ofBits .f32 0x3E000000#32 := by
  unfold k1_pay8; dsimp only; rw [shapeCast_self]
  show transpose S8x256x64 [1, 0, 2] (shapeCast S256x8x64 (shapeCast S256x512 x0 _) _) _ (ix3 hh r d) * Ideal.ofBits .f32 0x3E000000#32 = _
  rw [heads_apply]

/-- The value block by heads. -/
theorem pay9_apply (x2 : Vec Ideal S1x512x512 .bf16) (hh : Fin 8) (kc : Fin 512) (d : Fin 64) :
    k1_pay9 x2 (ix3 hh kc d) = x2 (ix3 (0 : Fin 1) kc ⟨hh.val * 64 + d.val, by have := hh.isLt; have := d.isLt; omega⟩) := by
  unfold k1_pay9; try dsimp only
  exact heads_apply _ _ _ _ hh kc d

/-- The score of query row `r` against key row `kc` in head `hh`. -/
theorem pay10_apply (x1 : Vec Ideal S1x512x512 .bf16) (qb : Vec Ideal S8x256x64 .bf16) (hh : Fin 8) (r : Fin 256) (kc : Fin 512) :
    k1_pay10 x1 qb (ix3 hh r kc) = ∑ d : Fin 64, qb (ix3 hh r d) * x1 (ix3 (0 : Fin 1) kc ⟨hh.val * 64 + d.val, by have := hh.isLt; have := d.isLt; omega⟩) := by
  unfold k1_pay10; try dsimp only
  refine (Cert.LibMatmul.matmul_zero_sum1 dot_S8x256x64_S8x512x64_S8x256x512_2_2_1_1_0_0 none 64 rfl rfl _ _ (ix3 hh r kc) (fun d => ix3 hh r d) (fun d => ix3 hh kc d) ?_ ?_).trans ?_
  · intro q k hq
    funext a; apply Fin.ext
    match a with
    | ⟨0, _⟩ => exact lhs_d1_0 _ _
    | ⟨1, _⟩ => exact lhs_d1_1 _ _
    | ⟨2, _⟩ => exact (lhs_d1_2 _ _).trans hq
  · intro q k hq
    funext a; apply Fin.ext
    match a with
    | ⟨0, _⟩ => exact rhs_d1_0 _ _
    | ⟨1, _⟩ => exact rhs_d1_1 _ _
    | ⟨2, _⟩ => exact (rhs_d1_2 _ _).trans hq
  · refine Finset.sum_congr rfl fun d _ => ?_
    rw [heads_apply]

/-- The new running maximum. -/
theorem pay11_apply (x1 : Vec Ideal S1x512x512 .bf16) (qb : Vec Ideal S8x256x64 .bf16) (mo : Vec Ideal S8x256x1 .f32)
    (hh : Fin 8) (r : Fin 256) (u : Fin 1) :
    k1_pay11 x1 qb mo (ix3 hh r u)
      = max (mo (ix3 hh r u)) ((Finset.univ : Finset (Fin 512)).fold max (Ideal.ofBits .f32 0xFF800000#32) fun kc => k1_pay10 x1 qb (ix3 hh r kc)) := by
  unfold k1_pay11; try dsimp only
  refine (maximumf_apply _ _ _).trans ?_
  refine congrArg (max (mo (ix3 hh r u))) ?_
  refine (keep_apply _ _ hh r u).trans ?_
  refine (Ideal.multiReduction_maximumf_single (k1_pay10 x1 qb) 0xFF800000#32 reduces_S8x256x512_S8x256 _ _ (ix2 hh r)).trans ?_
  refine (fold_max_cast (show S8x256x512.size 2 = 512 from rfl) _ _).trans ?_
  refine congrArg (fun f => Finset.fold max (Ideal.ofBits .f32 0xFF800000#32) f (Finset.univ : Finset (Fin 512))) (funext fun k => ?_)
  exact congrArg (k1_pay10 x1 qb) (lift3 _ hh r _)

/-- The rescaling factor of the old state. -/
theorem pay12_apply (x1 : Vec Ideal S1x512x512 .bf16) (qb : Vec Ideal S8x256x64 .bf16) (mo mo' : Vec Ideal S8x256x1 .f32) (i : S8x256x1.Idx) :
    k1_pay12 x1 qb mo mo' i = Ideal.exp (mo' i - k1_pay11 x1 qb mo i) := by
  unfold k1_pay12; rfl

/-- The block's weights. -/
theorem pay13_apply (x1 : Vec Ideal S1x512x512 .bf16) (qb : Vec Ideal S8x256x64 .bf16) (mo : Vec Ideal S8x256x1 .f32)
    (hh : Fin 8) (r : Fin 256) (kc : Fin 512) :
    k1_pay13 x1 qb mo (ix3 hh r kc) = Ideal.exp (k1_pay10 x1 qb (ix3 hh r kc) - k1_pay11 x1 qb mo (ix3 hh r (0 : Fin 1))) := by
  unfold k1_pay13; try dsimp only
  show Ideal.exp (k1_pay10 x1 qb (ix3 hh r kc) - broadcastTo S8x256x512 (k1_pay11 x1 qb mo) broadcasts_S8x256x1_S8x256x512 (ix3 hh r kc)) = _
  rw [bcast_last_apply]

/-- The new row sum. -/
theorem pay14_apply (x1 : Vec Ideal S1x512x512 .bf16) (qb : Vec Ideal S8x256x64 .bf16) (mo mo' lo : Vec Ideal S8x256x1 .f32)
    (hh : Fin 8) (r : Fin 256) (u : Fin 1) :
    k1_pay14 x1 qb mo mo' lo (ix3 hh r u)
      = k1_pay12 x1 qb mo mo' (ix3 hh r u) * lo (ix3 hh r u) + ∑ kc : Fin 512, k1_pay13 x1 qb mo (ix3 hh r kc) := by
  unfold k1_pay14; try dsimp only
  refine (addf_apply _ _ _).trans ?_
  refine congrArg (k1_pay12 x1 qb mo mo' (ix3 hh r u) * lo (ix3 hh r u) + ·) ?_
  refine (keep_apply _ _ hh r u).trans ?_
  refine (Ideal.multiReduction_add_single (k1_pay13 x1 qb mo) 0x00000000#32 reduces_S8x256x512_S8x256 _ _ (ix2 hh r)).trans ?_
  refine (sum_cast (show S8x256x512.size 2 = 512 from rfl) _).trans ?_
  exact Finset.sum_congr rfl fun k _ => congrArg (k1_pay13 x1 qb mo) (lift3 _ hh r _)

/-- The new accumulator. -/
theorem pay2_apply (v10 : FVec Ideal S8x512x64 .bf16) (a : FVec Ideal S8x256x1 .f32) (p : FVec Ideal S8x256x512 .f32) (ao : Vec Ideal S8x256x64 .f32)
    (hh : Fin 8) (r : Fin 256) (d : Fin 64) :
    k1_pay2 v10 a p ao (ix3 hh r d) = a (ix3 hh r (0 : Fin 1)) * ao (ix3 hh r d) + ∑ kc : Fin 512, p (ix3 hh r kc) * v10 (ix3 hh kc d) := by
  unfold k1_pay2; rw [shapeCast_self]
  show broadcastTo S8x256x64 a broadcasts_S8x256x1_S8x256x64 (ix3 hh r d) * ao (ix3 hh r d)
      + FloatOps.matmul dot_S8x256x512_S8x512x64_S8x256x64_2_1_1_2_0_0 none (truncf .bf16 p bitsLt_bf16_f32) v10 (constant S8x256x64 .f32 0x00000000#32) (ix3 hh r d) = _
  rw [bcast_last_apply]
  refine congrArg (a (ix3 hh r (0 : Fin 1)) * ao (ix3 hh r d) + ·) ?_
  refine (Cert.LibMatmul.matmul_zero_sum1 dot_S8x256x512_S8x512x64_S8x256x64_2_1_1_2_0_0 none 512 rfl rfl _ _ (ix3 hh r d) (fun k => ix3 hh r k) (fun k => ix3 hh k d) ?_ ?_).trans ?_
  · intro q k hq
    funext a'; apply Fin.ext
    match a' with
    | ⟨0, _⟩ => exact lhs_d2_0 _ _
    | ⟨1, _⟩ => exact lhs_d2_1 _ _
    | ⟨2, _⟩ => exact (lhs_d2_2 _ _).trans hq
  · intro q k hq
    funext a'; apply Fin.ext
    match a' with
    | ⟨0, _⟩ => exact rhs_d2_0 _ _
    | ⟨1, _⟩ => exact (rhs_d2_1 _ _).trans hq
    | ⟨2, _⟩ => exact rhs_d2_2 _ _
  · rfl

/-- The output block: the normalised accumulator, heads side by side, times the output weights, plus the bias. -/
theorem pay4_apply (acc : Vec Ideal S8x256x64 .f32) (l : Vec Ideal S8x256x1 .f32) (x3 : Vec Ideal S512x512 .bf16) (x4 : Vec Ideal S1x512 .f32)
    (u : Fin 1) (r : Fin 256) (e : Fin 512) :
    k1_pay4 acc l x3 x4 (ix3 u r e)
      = (∑ j : Fin 512, Ideal.div (acc (ix3 (⟨j.val / 64, by have := j.isLt; omega⟩ : Fin 8) r (⟨j.val % 64, by omega⟩ : Fin 64)))
            (l (ix3 (⟨j.val / 64, by have := j.isLt; omega⟩ : Fin 8) r (0 : Fin 1))) * x3 (ix2 e j))
        + x4 (ix2 (0 : Fin 1) e) := by
  unfold k1_pay4; try dsimp only
  rw [shapeCast_ab_1ab_apply]
  refine (addf_apply _ _ _).trans ?_
  refine congrArg₂ (· + ·) ?_ ?_
  · refine (Cert.LibMatmul.matmul_zero_sum1 dot_S256x512_S512x512_S256x512_1_1_0_0_n_n none 512 rfl rfl _ _ (ix2 r e) (fun k => ix2 r k) (fun k => ix2 e k) ?_ ?_).trans ?_
    · intro q k hq
      funext a'; apply Fin.ext
      match a' with
      | ⟨0, _⟩ => exact lhs_d3_0 _ _
      | ⟨1, _⟩ => exact (lhs_d3_1 _ _).trans hq
    · intro q k hq
      funext a'; apply Fin.ext
      match a' with
      | ⟨0, _⟩ => exact rhs_d3_0 _ _
      | ⟨1, _⟩ => exact (rhs_d3_1 _ _).trans hq
    · refine Finset.sum_congr rfl fun j _ => ?_
      rw [truncf_apply, merge_apply, swap01_apply, divf_apply, bcast_last_apply, shapeCast_self]
  · rw [broadcastTo_1b_ab_apply, shapeCast_self]

end Cert.KernelIdeal.Val

end
-- ==== Proof.LibOnlineSoftmax.lean ====
/-
  Online softmax. A row of scores is met one block of columns at a time; a running state keeps the
  greatest score so far, the sum of the exponentials of the scores less that maximum, and the sum of
  those exponentials times a value per column. When a new block raises the maximum the two sums are
  rescaled by the exponential of the old maximum less the new one. After the last block the quotient
  of the two sums is the softmax-weighted sum of the values over the whole row, with the maximum
  taken over the whole row: that is `run_div`.

  Everything is stated over the extended reals with the exponential and the quotient of
  `Idealize.ShloMosaic.Ideal`, for real scores and values (their coercions), so that the state before
  the first block, `(⊥, 0, 0)`, is a state like any other: `exp ⊥ = 0`.
-/
import Mathlib.Data.EReal.Operations
import Mathlib.Analysis.SpecialFunctions.Exp
import Mathlib.Data.Finset.Lattice.Prod
import Mathlib.Algebra.BigOperators.Fin
import Idealize.ShloMosaic.PureOps.Ideal

noncomputable section

namespace OnlineSoftmax

open Idealize.ShloMosaic
open scoped BigOperators

/-! ## Coercions of finite sums and maxima -/

/-- The coercion of a finite sum of reals is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of the greater of two reals is the greater of the coercions. -/
theorem coe_max (x y : ℝ) : ((max x y : ℝ) : EReal) = max (x : EReal) (y : EReal) :=
  EReal.coe_strictMono.monotone.map_max

/-- Folding `max` from the bottom element is the supremum. -/
theorem fold_max_eq_sup {ι : Type} (t : Finset ι) (f : ι → EReal) : t.fold max ⊥ f = t.sup f := rfl

/-- The supremum of the coercions of finitely many reals, at least one, is the coercion of their greatest. -/
theorem sup_coe {ι : Type} (t : Finset ι) (ht : t.Nonempty) (f : ι → ℝ) :
    t.sup (fun i => (f i : EReal)) = ((t.sup' ht f : ℝ) : EReal) := by
  rw [← Finset.sup'_eq_sup ht]
  exact (Finset.comp_sup'_eq_sup'_comp ht (fun r : ℝ => (r : EReal)) coe_max).symm

/-- A supremum over the naturals below `n` is the supremum over `Fin n`. -/
theorem sup_range_eq_sup_fin (n : ℕ) (g : ℕ → EReal) :
    (Finset.range n).sup g = Finset.univ.sup fun i : Fin n => g i := by
  apply le_antisymm
  · exact Finset.sup_le fun k hk =>
      Finset.le_sup (f := fun i : Fin n => g i) (Finset.mem_univ (⟨k, Finset.mem_range.1 hk⟩ : Fin n))
  · exact Finset.sup_le fun i _ => Finset.le_sup (f := g) (Finset.mem_range.2 i.isLt)

/-! ## The state and its step -/

variable {C : Type} [Fintype C]

/-- One block of columns (scores `s`, values `v`) folded into the running state: the greatest score,
    the sum of the exponentials, the sum of the exponentials times the values. -/
def step (s v : C → EReal) (st : EReal × EReal × EReal) : EReal × EReal × EReal :=
  let m' := max st.1 (Finset.univ.fold max ⊥ s)
  (m', Ideal.exp (st.1 - m') * st.2.1 + ∑ c, Ideal.exp (s c - m'),
    Ideal.exp (st.1 - m') * st.2.2 + ∑ c, Ideal.exp (s c - m') * v c)

/-- The state after the first `n` blocks, from `(⊥, 0, 0)`. -/
def run (s v : ℕ → C → EReal) : ℕ → EReal × EReal × EReal
  | 0 => (⊥, 0, 0)
  | n + 1 => step (s n) (v n) (run s v n)

theorem run_zero (s v : ℕ → C → EReal) : run s v 0 = (⊥, 0, 0) := rfl

theorem run_succ (s v : ℕ → C → EReal) (n : ℕ) : run s v (n + 1) = step (s n) (v n) (run s v n) := rfl

/-- The state after `n` blocks depends on the first `n` blocks only. -/
theorem run_congr {s v s' v' : ℕ → C → EReal} {n : ℕ} (hs : ∀ k, k < n → s k = s' k) (hv : ∀ k, k < n → v k = v' k) :
    run s v n = run s' v' n := by
  induction n with
  | zero => rfl
  | succ n ih =>
    rw [run_succ, run_succ, hs n (Nat.lt_succ_self n), hv n (Nat.lt_succ_self n),
      ih (fun k hk => hs k (Nat.lt_succ_of_lt hk)) (fun k hk => hv k (Nat.lt_succ_of_lt hk))]

/-! ## A block of real scores -/

/-- The greatest of a block's real scores. -/
def blockMax [Nonempty C] (s : C → ℝ) : ℝ := Finset.univ.sup' Finset.univ_nonempty s

/-- The fold of `max` over a block of real scores is the coercion of its greatest. -/
theorem fold_max_coe [Nonempty C] (s : C → ℝ) :
    Finset.univ.fold max ⊥ (fun c => (s c : EReal)) = (blockMax s : EReal) := by
  rw [fold_max_eq_sup]
  exact sup_coe Finset.univ Finset.univ_nonempty s

/-- The first block: from `(⊥, 0, 0)` the state is the block's own maximum and sums. -/
theorem step_bot [Nonempty C] (s v : C → ℝ) :
    step (fun c => (s c : EReal)) (fun c => (v c : EReal)) (⊥, 0, 0)
      = ((blockMax s : EReal), ((∑ c, Real.exp (s c - blockMax s) : ℝ) : EReal),
          ((∑ c, Real.exp (s c - blockMax s) * v c : ℝ) : EReal)) := by
  have hm : max (⊥ : EReal) (Finset.univ.fold max ⊥ fun c => (s c : EReal)) = (blockMax s : EReal) := by
    rw [fold_max_coe, max_eq_right bot_le]
  unfold step
  dsimp only
  rw [hm, EReal.bot_sub, Ideal.exp_bot, zero_mul, zero_add, zero_add, coe_sum, coe_sum]
  refine Prod.ext rfl (Prod.ext ?_ ?_)
  · exact Finset.sum_congr rfl fun c _ => by rw [← EReal.coe_sub, Ideal.exp_coe]
  · exact Finset.sum_congr rfl fun c _ => by rw [← EReal.coe_sub, Ideal.exp_coe, EReal.coe_mul]

/-- A later block: from a real state the new state is real, the old sums rescaled to the new maximum. -/
theorem step_coe [Nonempty C] (s v : C → ℝ) (m l a : ℝ) :
    step (fun c => (s c : EReal)) (fun c => (v c : EReal)) ((m : EReal), (l : EReal), (a : EReal))
      = (((max m (blockMax s) : ℝ) : EReal),
          ((Real.exp (m - max m (blockMax s)) * l + ∑ c, Real.exp (s c - max m (blockMax s)) : ℝ) : EReal),
          ((Real.exp (m - max m (blockMax s)) * a + ∑ c, Real.exp (s c - max m (blockMax s)) * v c : ℝ) : EReal)) := by
  have hm : max (m : EReal) (Finset.univ.fold max ⊥ fun c => (s c : EReal)) = ((max m (blockMax s) : ℝ) : EReal) := by
    rw [fold_max_coe, coe_max]
  unfold step
  dsimp only
  rw [hm]
  generalize max m (blockMax s) = m'
  rw [EReal.coe_add, EReal.coe_add, EReal.coe_mul, EReal.coe_mul, coe_sum, coe_sum, ← EReal.coe_sub, Ideal.exp_coe]
  refine Prod.ext rfl (Prod.ext ?_ ?_)
  · exact congrArg (_ + ·) (Finset.sum_congr rfl fun c _ => by rw [← EReal.coe_sub, Ideal.exp_coe])
  · exact congrArg (_ + ·) (Finset.sum_congr rfl fun c _ => by rw [← EReal.coe_sub, Ideal.exp_coe, EReal.coe_mul])

/-! ## The invariant -/

/-- Rescaling a sum of exponentials from one reference point to another. -/
theorem rescale_sum {ι : Type} (t : Finset ι) (f : ι → ℝ) (m m' : ℝ) :
    Real.exp (m - m') * ∑ i ∈ t, Real.exp (f i - m) = ∑ i ∈ t, Real.exp (f i - m') := by
  rw [Finset.mul_sum]
  refine Finset.sum_congr rfl fun i _ => ?_
  rw [← Real.exp_add]
  exact congrArg Real.exp (by ring)

/-- Rescaling a weighted sum of exponentials from one reference point to another. -/
theorem rescale_sum_mul {ι : Type} (t : Finset ι) (f w : ι → ℝ) (m m' : ℝ) :
    Real.exp (m - m') * ∑ i ∈ t, Real.exp (f i - m) * w i = ∑ i ∈ t, Real.exp (f i - m') * w i := by
  rw [Finset.mul_sum]
  refine Finset.sum_congr rfl fun i _ => ?_
  rw [← mul_assoc, ← Real.exp_add]
  exact congrArg (· * w i) (congrArg Real.exp (by ring))

/-- The greatest real score among blocks `0, …, n`. -/
def rmax [Nonempty C] (s : ℕ → C → ℝ) : ℕ → ℝ
  | 0 => blockMax (s 0)
  | n + 1 => max (rmax s n) (blockMax (s (n + 1)))

/-- After `n + 1` blocks of real scores and values the state is real: the greatest score so far, and the two
    sums over all columns so far taken relative to it. -/
theorem run_succ_eq [Nonempty C] (s v : ℕ → C → ℝ) (n : ℕ) :
    run (fun k c => (s k c : EReal)) (fun k c => (v k c : EReal)) (n + 1)
      = ((rmax s n : EReal),
          ((∑ k ∈ Finset.range (n + 1), ∑ c, Real.exp (s k c - rmax s n) : ℝ) : EReal),
          ((∑ k ∈ Finset.range (n + 1), ∑ c, Real.exp (s k c - rmax s n) * v k c : ℝ) : EReal)) := by
  induction n with
  | zero =>
    rw [run_succ, run_zero]
    refine (step_bot (s 0) (v 0)).trans ?_
    simp only [rmax, Nat.zero_add, Finset.range_one, Finset.sum_singleton]
  | succ n ih =>
    rw [run_succ, ih]
    refine (step_coe (s (n + 1)) (v (n + 1)) _ _ _).trans ?_
    have hM : rmax s (n + 1) = max (rmax s n) (blockMax (s (n + 1))) := rfl
    rw [hM]
    generalize max (rmax s n) (blockMax (s (n + 1))) = m'
    rw [Finset.sum_range_succ (fun k => ∑ c, Real.exp (s k c - m')) (n + 1),
      Finset.sum_range_succ (fun k => ∑ c, Real.exp (s k c - m') * v k c) (n + 1),
      Finset.mul_sum, Finset.mul_sum]
    refine Prod.ext rfl (Prod.ext ?_ ?_)
    · refine congrArg (fun x : ℝ => (x : EReal)) (congrArg (· + _) (Finset.sum_congr rfl fun k _ => ?_))
      exact rescale_sum Finset.univ (s k) (rmax s n) m'
    · refine congrArg (fun x : ℝ => (x : EReal)) (congrArg (· + _) (Finset.sum_congr rfl fun k _ => ?_))
      exact rescale_sum_mul Finset.univ (s k) (v k) (rmax s n) m'

/-- The greatest real score among blocks `0, …, n` is the supremum of all their coerced scores. -/
theorem rmax_eq_sup [Nonempty C] (s : ℕ → C → ℝ) (n : ℕ) :
    (rmax s n : EReal) = (Finset.range (n + 1)).sup fun k => Finset.univ.sup fun c => (s k c : EReal) := by
  induction n with
  | zero =>
    rw [Finset.range_one, Finset.sup_singleton]
    exact (sup_coe Finset.univ Finset.univ_nonempty (s 0)).symm
  | succ n ih =>
    rw [Finset.range_add_one (n := n + 1), Finset.sup_insert, ← ih]
    have hM : rmax s (n + 1) = max (rmax s n) (blockMax (s (n + 1))) := rfl
    rw [hM, coe_max, max_comm]
    exact congrArg (max · _) (sup_coe Finset.univ Finset.univ_nonempty (s (n + 1))).symm

/-- … and so the fold of `max` over the pairs (block, column). -/
theorem rmax_eq_fold [Nonempty C] (s : ℕ → C → ℝ) (n : ℕ) :
    (rmax s n : EReal)
      = max ⊥ (Finset.univ.fold max ⊥ fun kc : Fin (n + 1) × C => (s kc.1 kc.2 : EReal)) := by
  rw [max_eq_right bot_le, fold_max_eq_sup, rmax_eq_sup, sup_range_eq_sup_fin, ← Finset.univ_product_univ,
    Finset.sup_product_left]

/-- A double sum over the blocks below `n` and the columns is the sum over the pairs. -/
theorem sum_range_sum_eq {M : Type} [AddCommMonoid M] (n : ℕ) (g : ℕ → C → M) :
    ∑ k ∈ Finset.range n, ∑ c, g k c = ∑ kc : Fin n × C, g kc.1 kc.2 := by
  rw [Finset.sum_range, Fintype.sum_prod_type]

/-! ## The result -/

/-- **Online softmax is softmax.** After `n ≥ 1` blocks of real scores `s` and values `v`, the third component
    of the state over the second is the sum over all columns of the softmax weight — the exponential of the
    score less the row maximum `M`, over the sum of those exponentials — times the value. -/
theorem run_div [Nonempty C] (s v : ℕ → C → ℝ) (n : ℕ) (hn : 0 < n) :
    Ideal.div (run (fun k c => (s k c : EReal)) (fun k c => (v k c : EReal)) n).2.2
        (run (fun k c => (s k c : EReal)) (fun k c => (v k c : EReal)) n).2.1
      = ∑ kc : Fin n × C,
          Ideal.div
            (Ideal.exp ((s kc.1 kc.2 : EReal)
              - max ⊥ (Finset.univ.fold max ⊥ fun kc : Fin n × C => (s kc.1 kc.2 : EReal))))
            (0 + ∑ kc' : Fin n × C, Ideal.exp ((s kc'.1 kc'.2 : EReal)
              - max ⊥ (Finset.univ.fold max ⊥ fun kc : Fin n × C => (s kc.1 kc.2 : EReal))))
          * (v kc.1 kc.2 : EReal) := by
  obtain ⟨n, rfl⟩ : ∃ n', n = n' + 1 := ⟨n - 1, by omega⟩
  rw [run_succ_eq, ← rmax_eq_fold, sum_range_sum_eq, sum_range_sum_eq]
  generalize rmax s n = m
  -- the row sum is positive
  have hL : (∑ kc : Fin (n + 1) × C, Real.exp (s kc.1 kc.2 - m)) ≠ 0 :=
    (Finset.sum_pos (fun kc _ => Real.exp_pos _) Finset.univ_nonempty).ne'
  generalize hLdef : (∑ kc : Fin (n + 1) × C, Real.exp (s kc.1 kc.2 - m)) = L at hL
  have hden : (0 : EReal) + ∑ kc' : Fin (n + 1) × C, Ideal.exp ((s kc'.1 kc'.2 : EReal) - (m : EReal)) = (L : EReal) := by
    rw [zero_add, ← hLdef, coe_sum]
    exact Finset.sum_congr rfl fun kc _ => by rw [← EReal.coe_sub, Ideal.exp_coe]
  rw [hden]
  show Ideal.div ((∑ kc : Fin (n + 1) × C, Real.exp (s kc.1 kc.2 - m) * v kc.1 kc.2 : ℝ) : EReal) (L : EReal) = _
  rw [Ideal.div_coe hL, ← EReal.coe_mul, Finset.sum_mul, coe_sum]
  refine Finset.sum_congr rfl fun kc _ => ?_
  rw [Ideal.div_coe hL, ← EReal.coe_sub, Ideal.exp_coe, ← EReal.coe_mul, ← EReal.coe_mul]
  exact congrArg (fun x : ℝ => (x : EReal)) (by ring)

end OnlineSoftmax

end
-- ==== Proof.LibOnlineSoftmaxFlat.lean ====
/-
  Online softmax over a flat row. When the blocks are runs of `N` consecutive columns of a row of `n * N`
  columns — block `k` holds columns `k * N + c`, `c < N` — the sums and the maximum over the pairs
  (block, column) are the sums and the maximum over the row's columns, and `run_div` reads over the row.
-/
import Mathlib.Logic.Equiv.Fin.Basic
import proofs.«161986_j996432413274_2_alg».proof.Proof.LibOnlineSoftmax

noncomputable section

namespace OnlineSoftmax

open Idealize.ShloMosaic
open scoped BigOperators

/-- The flat position of column `c` of block `k`. -/
theorem flat_val (n N : ℕ) (k : Fin n) (c : Fin N) :
    ((finProdFinEquiv (k, c) : Fin (n * N)) : ℕ) = k.val * N + c.val := by
  rw [finProdFinEquiv_apply_val, Nat.add_comm, Nat.mul_comm]

/-- A sum over the pairs (block, column) is the sum over the flat positions. -/
theorem sum_prod_eq_sum_flat {M : Type} [AddCommMonoid M] (n N : ℕ) (f : Fin (n * N) → M) :
    ∑ kc : Fin n × Fin N, f (finProdFinEquiv kc) = ∑ j, f j :=
  Equiv.sum_comp finProdFinEquiv f

/-- A fold of `max` over the pairs (block, column) is the fold over the flat positions. -/
theorem fold_max_prod_eq_flat (n N : ℕ) (f : Fin (n * N) → EReal) :
    Finset.univ.fold max ⊥ (fun kc : Fin n × Fin N => f (finProdFinEquiv kc)) = Finset.univ.fold max ⊥ f := by
  rw [fold_max_eq_sup, fold_max_eq_sup, ← Finset.map_univ_equiv (finProdFinEquiv (m := n) (n := N)), Finset.sup_map]
  rfl

/-- **Online softmax over a flat row.** The row has `n * N` real scores `S` and values `V`; the blocks `s k`,
    `v k` (`k < n`) are its runs of `N` consecutive columns. After the `n` blocks the third component of the state
    over the second is the softmax-weighted sum of the values over the row. -/
theorem run_div_flat (n N : ℕ) (hn : 0 < n) (hN : 0 < N) (S V : Fin (n * N) → ℝ) (s v : ℕ → Fin N → EReal)
    (hs : ∀ (k : ℕ) (hk : k < n) (c : Fin N), s k c = (S (finProdFinEquiv (⟨k, hk⟩, c)) : EReal))
    (hv : ∀ (k : ℕ) (hk : k < n) (c : Fin N), v k c = (V (finProdFinEquiv (⟨k, hk⟩, c)) : EReal)) :
    Ideal.div (run s v n).2.2 (run s v n).2.1
      = ∑ j : Fin (n * N),
          Ideal.div (Ideal.exp ((S j : EReal) - max ⊥ (Finset.univ.fold max ⊥ fun j : Fin (n * N) => (S j : EReal))))
            (0 + ∑ j' : Fin (n * N),
              Ideal.exp ((S j' : EReal) - max ⊥ (Finset.univ.fold max ⊥ fun j : Fin (n * N) => (S j : EReal))))
          * (V j : EReal) := by
  haveI : Nonempty (Fin N) := ⟨⟨0, hN⟩⟩
  -- real blocks, extended past the row by zero
  let sR : ℕ → Fin N → ℝ := fun k c => if h : k < n then S (finProdFinEquiv (⟨k, h⟩, c)) else 0
  let vR : ℕ → Fin N → ℝ := fun k c => if h : k < n then V (finProdFinEquiv (⟨k, h⟩, c)) else 0
  have hS : ∀ kc : Fin n × Fin N, sR kc.1 kc.2 = S (finProdFinEquiv kc) := fun kc => by
    show (if h : (kc.1 : ℕ) < n then S (finProdFinEquiv (⟨kc.1, h⟩, kc.2)) else 0) = _
    rw [dif_pos kc.1.isLt]
  have hV : ∀ kc : Fin n × Fin N, vR kc.1 kc.2 = V (finProdFinEquiv kc) := fun kc => by
    show (if h : (kc.1 : ℕ) < n then V (finProdFinEquiv (⟨kc.1, h⟩, kc.2)) else 0) = _
    rw [dif_pos kc.1.isLt]
  have hrun : run s v n = run (fun k c => (sR k c : EReal)) (fun k c => (vR k c : EReal)) n :=
    run_congr (fun k hk => funext fun c => by
        show s k c = ((if h : k < n then S (finProdFinEquiv (⟨k, h⟩, c)) else 0 : ℝ) : EReal)
        rw [dif_pos hk, hs k hk c])
      (fun k hk => funext fun c => by
        show v k c = ((if h : k < n then V (finProdFinEquiv (⟨k, h⟩, c)) else 0 : ℝ) : EReal)
        rw [dif_pos hk, hv k hk c])
  rw [hrun, run_div sR vR n hn]
  simp only [hS, hV]
  rw [fold_max_prod_eq_flat n N (fun j => (S j : EReal))]
  generalize max ⊥ (Finset.univ.fold max ⊥ fun j : Fin (n * N) => (S j : EReal)) = M
  rw [sum_prod_eq_sum_flat n N (fun j => Ideal.exp ((S j : EReal) - M))]
  exact sum_prod_eq_sum_flat n N (fun j => Ideal.div (Ideal.exp ((S j : EReal) - M))
    (0 + ∑ j' : Fin (n * N), Ideal.exp ((S j' : EReal) - M)) * (V j : EReal))

end OnlineSoftmax

end
-- ==== Proof.Val.KSpec.lean ====
/-
  The attention launch's result, stated over natural coordinates. For batch b, head h, query row n and feature d, the state
  after j key blocks of 512 rows is the online-softmax fold of the scores of row n against the keys, with the values' feature
  64 h + d. The kernel's score multiplies each query entry by the float 1/8 first. After the eight key blocks the quotient of the
  accumulator by the row sum, the heads side by side, times the output weights, plus the bias, is the output entry.
-/
import proofs.«161986_j996432413274_2_alg».proof.Proof.LibOnlineSoftmaxFlat
import Idealize.ShloMosaic.Lib.ValueIdx

noncomputable section

namespace Cert.AttnSpec

open Idealize.ShloMosaic Idealize.ShloMosaic.ValueIdx
open scoped BigOperators

/-- A rank-3 array read at natural coordinates (zero outside its extents). -/
def nat3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0

theorem nat3_of {a b c : ℕ} (A : (⟨3, ![a, b, c]⟩ : Shape).Idx → EReal) (i j k : ℕ) (hi : i < a) (hj : j < b) (hk : k < c) :
    nat3 A i j k = A (ix3 ⟨i, hi⟩ ⟨j, hj⟩ ⟨k, hk⟩) := dif_pos ⟨hi, hj, hk⟩

abbrev Arr3 : Type := (⟨3, ![2, 4096, 512]⟩ : Shape).Idx → EReal

/-- The kernel's score of query row `n` against key row `mm` in head `hh` of batch `b`. -/
def kscore (Qa Ka : Arr3) (b hh n mm : ℕ) : EReal :=
  ∑ d : Fin 64, (nat3 Qa b n (hh * 64 + d.val) * Ideal.ofBits .f32 0x3E000000#32) * nat3 Ka b mm (hh * 64 + d.val)

/-- The online-softmax state of that row for value feature `dd` after `j` key blocks. -/
def krun (Qa Ka Va : Arr3) (b hh n dd : ℕ) (j : ℕ) : EReal × EReal × EReal :=
  OnlineSoftmax.run (fun k (kc : Fin 512) => kscore Qa Ka b hh n (k * 512 + kc.val))
    (fun k (kc : Fin 512) => nat3 Va b (k * 512 + kc.val) (hh * 64 + dd)) j

/-- The attention output at (b, n), feature `j` of the heads laid side by side: the accumulator over the row sum. -/
def ksa (Qa Ka Va : Arr3) (b n j : ℕ) : EReal :=
  Ideal.div (krun Qa Ka Va b (j / 64) n (j % 64) 8).2.2 (krun Qa Ka Va b (j / 64) n (j % 64) 8).2.1

/-- The kernel's result array. -/
def kout (Qa Ka Va : Arr3) (Wa : (⟨2, ![512, 512]⟩ : Shape).Idx → EReal) (Ba : (⟨2, ![1, 512]⟩ : Shape).Idx → EReal) : Arr3 :=
  fun i => (∑ j : Fin 512, ksa Qa Ka Va (i 0).val (i 1).val j.val * Wa (ix2 ⟨(i 2).val, (i 2).isLt⟩ j)) + Ba (ix2 (0 : Fin 1) ⟨(i 2).val, (i 2).isLt⟩)

end Cert.AttnSpec

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.Val.K1Inv.lean ====
/-
  The attention launch's state after every grid point. Point t is batch t / 128, query block (t / 8) mod 16, key block t mod 8.
  After the point, for every head, query row of the block and feature, the running maximum, the row sum and the accumulator entry
  are the online-softmax state of that row after (t mod 8) + 1 key blocks, and the cached queries are the query block's entries
  times 1/8. At a first key block the old state is the reset one, which is the fold's start; otherwise it is the state the point
  before left, by induction, and one key block is one step of the fold.
-/
import proofs.«161986_j996432413274_2_alg».proof.Proof.Val.K1Read
import proofs.«161986_j996432413274_2_alg».proof.Proof.Val.KSpec
import proofs.«161986_j996432413274_2_alg».proof.Proof.LibEReal

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec

section
variable (V : (c : Dev nD) → (b : Ref sig .tc) → Buf (Elt Ideal) ((c : Thread nD τ).loc b)) (c : Dev nD)

/-- The printed index maps in closed form, decided over the grid. -/
theorem idx_facts1 : ∀ t : Fin cfg1.N, win1_0.index t (0 : Fin 3) = t.val / 128 ∧ win1_0.index t (1 : Fin 3) = t.val / 8 % 16 ∧ win1_0.index t (2 : Fin 3) = 0
    ∧ win1_1.index t (0 : Fin 3) = t.val / 128 ∧ win1_1.index t (1 : Fin 3) = t.val % 8 ∧ win1_1.index t (2 : Fin 3) = 0
    ∧ win1_2.index t (0 : Fin 3) = t.val / 128 ∧ win1_2.index t (1 : Fin 3) = t.val % 8 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val / 128 ∧ win1_5.index t (1 : Fin 3) = t.val / 8 % 16 ∧ win1_5.index t (2 : Fin 3) = 0 :=
  (by decide +kernel : ∀ t : Fin grid1.N, _)

theorem N1 (t : Fin cfg1.N) : t.val < 256 := lt_of_lt_of_eq t.isLt (show cfg1.N = 256 from N_1)

/-! ## The blocks, read at natural coordinates of their arrays -/

theorem iblkQ (t : Fin cfg1.N) (r : Fin 256) (j : Fin 512) :
    (iblk1 V c 0 t : S1x256x512.Idx → EReal) (ix3 (0 : Fin 1) r j) = nat3 (V c main_v6) (t.val / 128) (t.val / 8 % 16 * 256 + r.val) j.val := by
  obtain ⟨e0, e1, e2, e3, e4, e5, e6, e7, e8, e9, e10, e11, e12, e13, e14, e15⟩ := idx_facts1 t
  have hN := N1 t
  rw [nat3_of _ _ _ _ (by omega) (by omega) j.isLt]
  show (V c main_v6 : S2x4096x512.Idx → EReal) (((cfg1.win 0).blk t).view.emb (ix3 (0 : Fin 1) r j)) = _
  refine congrArg _ (funext fun a => Fin.ext ?_)
  match a with
  | ⟨0, _⟩ => show win1_0.index t (0 : Fin 3) * 1 + 1 * 0 = t.val / 128; omega
  | ⟨1, _⟩ => show win1_0.index t (1 : Fin 3) * 256 + 1 * r.val = t.val / 8 % 16 * 256 + r.val; omega
  | ⟨2, _⟩ => show win1_0.index t (2 : Fin 3) * 512 + 1 * j.val = j.val; omega

theorem iblkK (t : Fin cfg1.N) (kc : Fin 512) (j : Fin 512) :
    (iblk1 V c 1 t : S1x512x512.Idx → EReal) (ix3 (0 : Fin 1) kc j) = nat3 (V c main_v7) (t.val / 128) (t.val % 8 * 512 + kc.val) j.val := by
  obtain ⟨e0, e1, e2, e3, e4, e5, e6, e7, e8, e9, e10, e11, e12, e13, e14, e15⟩ := idx_facts1 t
  have hN := N1 t
  rw [nat3_of _ _ _ _ (by omega) (by omega) j.isLt]
  show (V c main_v7 : S2x4096x512.Idx → EReal) (((cfg1.win 1).blk t).view.emb (ix3 (0 : Fin 1) kc j)) = _
  refine congrArg _ (funext fun a => Fin.ext ?_)
  match a with
  | ⟨0, _⟩ => show win1_1.index t (0 : Fin 3) * 1 + 1 * 0 = t.val / 128; omega
  | ⟨1, _⟩ => show win1_1.index t (1 : Fin 3) * 512 + 1 * kc.val = t.val % 8 * 512 + kc.val; omega
  | ⟨2, _⟩ => show win1_1.index t (2 : Fin 3) * 512 + 1 * j.val = j.val; omega

theorem iblkV (t : Fin cfg1.N) (kc : Fin 512) (j : Fin 512) :
    (iblk1 V c 2 t : S1x512x512.Idx → EReal) (ix3 (0 : Fin 1) kc j) = nat3 (V c main_v8) (t.val / 128) (t.val % 8 * 512 + kc.val) j.val := by
  obtain ⟨e0, e1, e2, e3, e4, e5, e6, e7, e8, e9, e10, e11, e12, e13, e14, e15⟩ := idx_facts1 t
  have hN := N1 t
  rw [nat3_of _ _ _ _ (by omega) (by omega) j.isLt]
  show (V c main_v8 : S2x4096x512.Idx → EReal) (((cfg1.win 2).blk t).view.emb (ix3 (0 : Fin 1) kc j)) = _
  refine congrArg _ (funext fun a => Fin.ext ?_)
  match a with
  | ⟨0, _⟩ => show win1_2.index t (0 : Fin 3) * 1 + 1 * 0 = t.val / 128; omega
  | ⟨1, _⟩ => show win1_2.index t (1 : Fin 3) * 512 + 1 * kc.val = t.val % 8 * 512 + kc.val; omega
  | ⟨2, _⟩ => show win1_2.index t (2 : Fin 3) * 512 + 1 * j.val = j.val; omega

theorem iblkW (t : Fin cfg1.N) (e j : Fin 512) :
    (iblk1 V c 3 t : S512x512.Idx → EReal) (ix2 e j) = (V c main_v1 : S512x512.Idx → EReal) (ix2 e j) := by
  obtain ⟨e0, e1, e2, e3, e4, e5, e6, e7, e8, e9, e10, e11, e12, e13, e14, e15⟩ := idx_facts1 t
  show (V c main_v1 : S512x512.Idx → EReal) (((cfg1.win 3).blk t).view.emb (ix2 e j)) = _
  refine congrArg _ (funext fun a => Fin.ext ?_)
  match a with
  | ⟨0, _⟩ => show win1_3.index t (0 : Fin 2) * 512 + 1 * e.val = e.val; omega
  | ⟨1, _⟩ => show win1_3.index t (1 : Fin 2) * 512 + 1 * j.val = j.val; omega

theorem iblkB (t : Fin cfg1.N) (e : Fin 512) :
    (iblk1 V c 4 t : S1x512.Idx → EReal) (ix2 (0 : Fin 1) e) = (V c main_v2 : S1x512.Idx → EReal) (ix2 (0 : Fin 1) e) := by
  obtain ⟨e0, e1, e2, e3, e4, e5, e6, e7, e8, e9, e10, e11, e12, e13, e14, e15⟩ := idx_facts1 t
  show (V c main_v2 : S1x512.Idx → EReal) (((cfg1.win 4).blk t).view.emb (ix2 (0 : Fin 1) e)) = _
  refine congrArg _ (funext fun a => Fin.ext ?_)
  match a with
  | ⟨0, _⟩ => show win1_4.index t (0 : Fin 2) * 1 + 1 * 0 = 0; omega
  | ⟨1, _⟩ => show win1_4.index t (1 : Fin 2) * 512 + 1 * e.val = e.val; omega

end

/-! ## One key block is one step of the fold -/

theorem upd_step (x1 x2 : Vec Ideal S1x512x512 .bf16) (qb : Vec Ideal S8x256x64 .bf16) (mo lo : Vec Ideal S8x256x1 .f32)
    (ao : Vec Ideal S8x256x64 .f32) (hh : Fin 8) (r : Fin 256) (d : Fin 64) :
    (updM x1 qb mo (ix3 hh r (0 : Fin 1)), updL x1 qb mo lo (ix3 hh r (0 : Fin 1)), updAcc x1 x2 qb mo ao (ix3 hh r d))
      = OnlineSoftmax.step (fun kc : Fin 512 => k1_pay10 x1 qb (ix3 hh r kc)) (fun kc : Fin 512 => k1_pay9 x2 (ix3 hh kc d))
          (mo (ix3 hh r (0 : Fin 1)), lo (ix3 hh r (0 : Fin 1)), ao (ix3 hh r d)) := by
  have hm : k1_pay11 x1 qb mo (ix3 hh r (0 : Fin 1))
      = max (mo (ix3 hh r (0 : Fin 1))) ((Finset.univ : Finset (Fin 512)).fold max ⊥ fun kc => k1_pay10 x1 qb (ix3 hh r kc)) := by
    rw [pay11_apply, Cert.LibEReal.ofBits_neg_inf]
  unfold updM updL updAcc OnlineSoftmax.step
  refine Prod.ext ?_ (Prod.ext ?_ ?_)
  · show k1_pay3 (k1_pay11 x1 qb mo) (ix3 hh r (0 : Fin 1)) = _
    rw [pay3_id]; exact hm
  · show k1_pay1 (k1_pay14 x1 qb mo mo lo) (ix3 hh r (0 : Fin 1)) = _
    rw [pay1_id, pay14_apply, pay12_apply]
    simp only [pay13_apply, hm]
  · show k1_pay2 (k1_pay9 x2) (k1_pay12 x1 qb mo mo) (k1_pay13 x1 qb mo) ao (ix3 hh r d) = _
    rw [pay2_apply, pay12_apply]
    simp only [pay13_apply, hm]

end Cert.KernelIdeal.Val

end
-- ==== Proof.Val.K1State.lean ====
/-
  The induction over the grid points. After point t the state scratches hold, at head h, row r of the query block and feature
  d, the online-softmax state of query row (t / 8 mod 16) * 256 + r of batch t / 128 after (t mod 8) + 1 key blocks, and the
  cache holds that row's query entries times 1/8. A first key block starts from the reset state, which is the fold's start.
  Any other point finds the state of the point before, which has the same batch and query block and one key block fewer.
-/
import proofs.«161986_j996432413274_2_alg».proof.Proof.Val.K1Inv

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec

/-- One step of the fold from a state that is the fold after `j` key blocks. -/
theorem step_run (Qa Ka Va : Arr3) (b hh n dd j : ℕ) (st : EReal × EReal × EReal) (hst : st = krun Qa Ka Va b hh n dd j)
    (s v : Fin 512 → EReal) (hs : ∀ kc : Fin 512, s kc = kscore Qa Ka b hh n (j * 512 + kc.val))
    (hv : ∀ kc : Fin 512, v kc = nat3 Va b (j * 512 + kc.val) (hh * 64 + dd)) :
    OnlineSoftmax.step s v st = krun Qa Ka Va b hh n dd (j + 1) := by
  subst hst
  rw [show s = _ from funext hs, show v = _ from funext hv]
  rfl

section
variable (V : (c : Dev nD) → (b : Ref sig .tc) → Buf (Elt Ideal) ((c : Thread nD τ).loc b)) (c : Dev nD)

/-- The queries, keys and values as the attention launch finds them. -/
def Qa : Arr3 := V c main_v6
def Ka : Arr3 := V c main_v7
def Va : Arr3 := V c main_v8

/-- The state after position `t`. -/
def Inv1 (t : ℕ) (ht : t < cfg1.N) : Prop :=
  ∀ (hh : Fin 8) (r : Fin 256) (d : Fin 64),
    ((outsAt1 V c t ht).2.1 (ix3 hh r (0 : Fin 1)), (outsAt1 V c t ht).2.2.1 (ix3 hh r (0 : Fin 1)), (outsAt1 V c t ht).2.2.2.1 (ix3 hh r d))
        = krun (Qa V c) (Ka V c) (Va V c) (t / 128) hh.val (t / 8 % 16 * 256 + r.val) d.val (t % 8 + 1)
      ∧ (outsAt1 V c t ht).2.2.2.2 (ix3 hh r d)
        = nat3 (Qa V c) (t / 128) (t / 8 % 16 * 256 + r.val) (hh.val * 64 + d.val) * Ideal.ofBits .f32 0x3E000000#32

/-- The scores of the point's key block against cached queries that are the query rows over eight. -/
theorem sc_eq (t : Fin cfg1.N) (qb : Vec Ideal S8x256x64 .bf16) (hh : Fin 8) (r : Fin 256)
    (hq : ∀ d : Fin 64, qb (ix3 hh r d) = nat3 (Qa V c) (t.val / 128) (t.val / 8 % 16 * 256 + r.val) (hh.val * 64 + d.val) * Ideal.ofBits .f32 0x3E000000#32)
    (kc : Fin 512) :
    k1_pay10 (iblk1 V c 1 t) qb (ix3 hh r kc) = kscore (Qa V c) (Ka V c) (t.val / 128) hh.val (t.val / 8 % 16 * 256 + r.val) (t.val % 8 * 512 + kc.val) := by
  refine (pay10_apply (iblk1 V c 1 t) qb hh r kc).trans ?_
  unfold kscore
  refine Finset.sum_congr rfl fun d _ => ?_
  rw [hq d]
  exact congrArg _ (iblkK V c t kc _)

/-- The values of the point's value block. -/
theorem vl_eq (t : Fin cfg1.N) (hh : Fin 8) (kc : Fin 512) (d : Fin 64) :
    k1_pay9 (iblk1 V c 2 t) (ix3 hh kc d) = nat3 (Va V c) (t.val / 128) (t.val % 8 * 512 + kc.val) (hh.val * 64 + d.val) :=
  (pay9_apply (iblk1 V c 2 t) hh kc d).trans (iblkV V c t kc _)

/-- A first key block. -/
theorem inv_first (t : Fin cfg1.N) (h0 : t.val % 8 = 0) : Inv1 V c t.val t.isLt := by
  intro hh r d
  rw [outsAt1_A V c t h0]
  unfold stepA; dsimp only
  rw [sout1_A_0_eq, sout1_A_1_eq, sout1_A_2_eq, sout1_A_3_eq]
  have hq : ∀ d : Fin 64, k1_pay8 (iblk1 V c 0 t) (ix3 hh r d)
      = nat3 (Qa V c) (t.val / 128) (t.val / 8 % 16 * 256 + r.val) (hh.val * 64 + d.val) * Ideal.ofBits .f32 0x3E000000#32 := fun d => by
    rw [pay8_apply]; exact congrArg (· * _) (iblkQ V c t r _)
  refine ⟨?_, hq d⟩
  rw [upd_step]
  have h1 : t.val % 8 + 1 = 0 + 1 := by omega
  rw [h1]
  refine step_run _ _ _ _ _ _ _ 0 _ ?_ _ _ (fun kc => ?_) (fun kc => ?_)
  · show (k1_pay5 (F := Ideal) _, k1_pay6 (F := Ideal) _, k1_pay7 (F := Ideal) _) = ((⊥ : EReal), (0 : EReal), (0 : EReal))
    rw [pay5_apply, pay6_apply, pay7_apply, Cert.LibEReal.ofBits_neg_inf, Ideal.ofBits_zero_f32]
  · rw [sc_eq V c t _ hh r hq kc, h0]
  · rw [vl_eq V c t hh kc d, h0]

/-- Any other key block, from the state of the point before. -/
theorem inv_next (t : Fin cfg1.N) (h0 : ¬t.val % 8 = 0)
    (ih : Inv1 V c (t.val - 1) (Nat.lt_of_le_of_lt (Nat.sub_le _ _) t.isLt)) : Inv1 V c t.val t.isLt := by
  intro hh r d
  have hN := N1 t
  have a1 : (t.val - 1) / 128 = t.val / 128 := by omega
  have a2 : (t.val - 1) / 8 % 16 = t.val / 8 % 16 := by omega
  have a3 : (t.val - 1) % 8 + 1 = t.val % 8 := by omega
  have ihq : ∀ d : Fin 64, (outsAt1 V c (t.val - 1) (Nat.lt_of_le_of_lt (Nat.sub_le _ _) t.isLt)).2.2.2.2 (ix3 hh r d)
      = nat3 (Qa V c) (t.val / 128) (t.val / 8 % 16 * 256 + r.val) (hh.val * 64 + d.val) * Ideal.ofBits .f32 0x3E000000#32 := fun d => by
    have := (ih hh r d).2; rw [a1, a2] at this; exact this
  have ihs := (ih hh r d).1
  rw [a1, a2, a3] at ihs
  by_cases h1 : t.val % 8 = 7
  · rw [outsAt1_C V c t h1]
    unfold stepC; dsimp only
    rw [sout1_C_0_eq, sout1_C_1_eq, sout1_C_2_eq]
    refine ⟨?_, ihq d⟩
    rw [upd_step]
    exact step_run _ _ _ _ _ _ _ (t.val % 8) _ ihs _ _ (fun kc => sc_eq V c t _ hh r ihq kc) (fun kc => vl_eq V c t hh kc d)
  · rw [outsAt1_B V c t h0 h1]
    unfold stepB; dsimp only
    rw [sout1_B_0_eq, sout1_B_1_eq, sout1_B_2_eq]
    refine ⟨?_, ihq d⟩
    rw [upd_step]
    exact step_run _ _ _ _ _ _ _ (t.val % 8) _ ihs _ _ (fun kc => sc_eq V c t _ hh r ihq kc) (fun kc => vl_eq V c t hh kc d)

/-- The state after every position. -/
theorem inv_all : ∀ (t : ℕ) (ht : t < cfg1.N), Inv1 V c t ht := by
  intro t
  induction t with
  | zero => intro ht; exact inv_first V c ⟨0, ht⟩ (Nat.zero_mod 8)
  | succ n ih =>
    intro ht
    by_cases h0 : (n + 1) % 8 = 0
    · exact inv_first V c ⟨n + 1, ht⟩ h0
    · exact inv_next V c ⟨n + 1, ht⟩ h0 (ih (Nat.lt_of_succ_lt ht))

end

end Cert.KernelIdeal.Val

end
-- ==== Proof.Val.K1Array.lean ====
/-
  The attention launch's result array. Only a last key block stores and writes back the output block. Its entry (r, e) is the
  sum over the 512 features j of the accumulator over the row sum, at head j / 64 and feature j mod 64, times the output weight
  (e, j), plus the bias entry e; by the state invariant the accumulator and the row sum are the online-softmax state after all
  eight key blocks. The block of point t is rows (t / 8 mod 16) * 256 onward of batch t / 128, and the points with t mod 8 = 7
  reach every batch and query block.
-/
import proofs.«161986_j996432413274_2_alg».proof.Proof.Val.K1State

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec

section
variable (V : (c : Dev nD) → (b : Ref sig .tc) → Buf (Elt Ideal) ((c : Thread nD τ).loc b)) (c : Dev nD)

/-- What a last key block writes back is its block of the spec array. -/
theorem flushed1_eq (t : Fin cfg1.N) (hf : (cfg1.win 5).flush t = true) :
    (dat1 V c).flushed 5 t
      = ((cfg1.win 5).blk t).view.read (Elt Ideal) (kout (Qa V c) (Ka V c) (Va V c) (V c main_v1) (V c main_v2)) := by
  have h7 : t.val % 8 = 7 := (flush1_5 t).mp hf
  have hN := N1 t
  obtain ⟨e0, e1, e2, e3, e4, e5, e6, e7, e8, e9, e10, e11, e12, e13, e14, e15⟩ := idx_facts1 t
  have hI := inv_all V c t.val t.isLt
  unfold Inv1 at hI
  rw [outsAt1_C V c t h7] at hI
  unfold stepC at hI; dsimp only at hI
  rw [sout1_C_0_eq, sout1_C_1_eq, sout1_C_2_eq] at hI
  show (cfg1.win 5).cut (grid1.coords t) ((dat1 V c).after 5 t) = _
  rw [after1_5, outsAt1_C V c t h7]
  unfold stepC; dsimp only
  rw [out1_C_5_eq]
  funext j
  obtain ⟨u, r, e, rfl⟩ : ∃ (u : Fin 1) (r : Fin 256) (e : Fin 512), j = ix3 u r e := ⟨j 0, j 1, j 2, eq_ix3 j⟩
  have hi0 : ((((cfg1.win 5).blk t).view.emb (ix3 u r e)) 0).val = t.val / 128 := by
    show win1_5.index t (0 : Fin 3) * 1 + 1 * u.val = _; omega
  have hi1 : ((((cfg1.win 5).blk t).view.emb (ix3 u r e)) 1).val = t.val / 8 % 16 * 256 + r.val := by
    show win1_5.index t (1 : Fin 3) * 256 + 1 * r.val = _; omega
  have hi2 : ((((cfg1.win 5).blk t).view.emb (ix3 u r e)) 2).val = e.val := by
    show win1_5.index t (2 : Fin 3) * 512 + 1 * e.val = _; omega
  have he : (⟨((((cfg1.win 5).blk t).view.emb (ix3 u r e)) 2).val, ((((cfg1.win 5).blk t).view.emb (ix3 u r e)) 2).isLt⟩ : Fin 512) = e := Fin.ext hi2
  show outBlk _ _ (iblk1 V c 3 t) (iblk1 V c 4 t) (ix3 u r e)
    = kout (Qa V c) (Ka V c) (Va V c) (V c main_v1) (V c main_v2) (((cfg1.win 5).blk t).view.emb (ix3 u r e))
  unfold outBlk kout
  rw [pay4_apply]
  dsimp only
  rw [hi0, hi1, he]
  refine congrArg₂ (· + ·) (Finset.sum_congr rfl fun j _ => congrArg₂ (· * ·) ?_ (iblkW V c t e j)) (iblkB V c t e)
  have hj := (hI ⟨j.val / 64, by have := j.isLt; omega⟩ r ⟨j.val % 64, by omega⟩).1
  have h8 : t.val % 8 + 1 = 8 := by omega
  rw [h8] at hj
  unfold ksa
  exact congrArg₂ Ideal.div (congrArg (fun p : EReal × EReal × EReal => p.2.2) hj) (congrArg (fun p : EReal × EReal × EReal => p.2.1) hj)

theorem mem_blk1 (t : Fin cfg1.N) (i : S2x4096x512.Idx) :
    i ∈ ((cfg1.win 5).blk t).view.set ↔ ∀ a : Fin 3, win1_5.index t a * S1x256x512.size a ≤ (i a).val ∧ (i a).val < win1_5.index t a * S1x256x512.size a + S1x256x512.size a := by
  show i ∈ ((View.whole main_v9).slice (win1_5.rect t)).set ↔ _
  rw [View.set_slice_whole, Rect.mem_set_unit]
  exact Iff.rfl

/-- Every entry of the result array is in the block of some last key block. -/
theorem cover1 (i : S2x4096x512.Idx) :
    ∃ t : Fin cfg1.N, (cfg1.win 5).flush t = true ∧ i ∈ ((cfg1.win 5).blk t).view.set := by
  have hi0 : (i 0).val < 2 := (i 0).isLt
  have hi1 : (i 1).val < 4096 := (i 1).isLt
  have hi2 : (i 2).val < 512 := (i 2).isLt
  have hlt : (i 0).val * 128 + (i 1).val / 256 * 8 + 7 < cfg1.N := by
    have : cfg1.N = 256 := N_1
    omega
  refine ⟨⟨(i 0).val * 128 + (i 1).val / 256 * 8 + 7, hlt⟩, (flush1_5 _).mpr (by show ((i 0).val * 128 + (i 1).val / 256 * 8 + 7) % 8 = 7; omega), ?_⟩
  obtain ⟨e0, e1, e2, e3, e4, e5, e6, e7, e8, e9, e10, e11, e12, e13, e14, e15⟩ := idx_facts1 ⟨(i 0).val * 128 + (i 1).val / 256 * 8 + 7, hlt⟩
  rw [mem_blk1]
  intro a
  match a with
  | ⟨0, _⟩ =>
    show win1_5.index _ (0 : Fin 3) * 1 ≤ (i 0).val ∧ (i 0).val < win1_5.index _ (0 : Fin 3) * 1 + 1
    rw [e13]; dsimp only; omega
  | ⟨1, _⟩ =>
    show win1_5.index _ (1 : Fin 3) * 256 ≤ (i 1).val ∧ (i 1).val < win1_5.index _ (1 : Fin 3) * 256 + 256
    rw [e14]; dsimp only; omega
  | ⟨2, _⟩ =>
    show win1_5.index _ (2 : Fin 3) * 512 ≤ (i 2).val ∧ (i 2).val < win1_5.index _ (2 : Fin 3) * 512 + 512
    rw [e15]; omega

/-- The array the attention launch leaves. -/
theorem final1 : (dat1 V c).arrAt 5 cfg1.N = kout (Qa V c) (Ka V c) (Va V c) (V c main_v1) (V c main_v2) :=
  (dat1 V c).arrAt_eq_of_cover 5 _ (fun t hf => flushed1_eq V c t hf) cover1

end

end Cert.KernelIdeal.Val

end
-- ==== Proof.Val.K0Value.lean ====
/-
  The projection launch's result. Row r of the flattened input times projection row e, summed over the 512 input features:
  that is entry (r, e) of the array the launch leaves, whatever the tiling into blocks of 1024 rows. A grid point's payload is
  the product of its row block with the whole weight matrix; read at an entry it is that sum over the block's row, and the
  block's row p at point t is row 1024 t + p of the array. The eight blocks cover the 8192 rows.
-/
import proofs.«161986_j996432413274_2_alg».proof.Proof.KernelIdeal.R0
import proofs.«161986_j996432413274_2_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

/-- An array's contents read as a function into the extended reals. -/
abbrev asArr {s : Shape} (f : s.Idx → EReal) : s.Idx → EReal := f

/-- Entry (r, e) of the projection of the rows `X` onto the projection rows `Wt`. -/
def proj (X : S8192x512.Idx → EReal) (Wt : S1536x512.Idx → EReal) (r : Fin 8192) (e : Fin 1536) : EReal :=
  ∑ d : Fin 512, X (ix2 r d) * Wt (ix2 e d)

/-- The projection as an array. -/
def projArr (X : S8192x512.Idx → EReal) (Wt : S1536x512.Idx → EReal) : S8192x1536.Idx → EReal :=
  fun i => proj X Wt ⟨(i 0).val, (i 0).isLt⟩ ⟨(i 1).val, (i 1).isLt⟩

theorem lhs_d0_0 (i : S1024x1536.Idx) (q : dot_S1024x512_S1536x512_S1024x1536_1_1_0_0_n_n.contr.Idx) :
    (dot_S1024x512_S1536x512_S1024x1536_1_1_0_0_n_n.lhsIdx i q 0).val = (i 0).val := by
  unfold DotDims.lhsIdx
  rw [dif_neg (show ¬(0 : Fin S1024x512.rank) ∈ dot_S1024x512_S1536x512_S1024x1536_1_1_0_0_n_n.lhsBatch by decide), dif_pos (show (0 : Fin S1024x512.rank) ∈ dot_S1024x512_S1536x512_S1024x1536_1_1_0_0_n_n.lhsNonContracting by decide)]
  rfl
theorem lhs_d0_1 (i : S1024x1536.Idx) (q : dot_S1024x512_S1536x512_S1024x1536_1_1_0_0_n_n.contr.Idx) :
    (dot_S1024x512_S1536x512_S1024x1536_1_1_0_0_n_n.lhsIdx i q 1).val = (q ⟨0, by decide⟩).val :=
  dot_S1024x512_S1536x512_S1024x1536_1_1_0_0_n_n.lhsIdx_val_of_single rfl i q
theorem rhs_d0_0 (i : S1024x1536.Idx) (q : dot_S1024x512_S1536x512_S1024x1536_1_1_0_0_n_n.contr.Idx) :
    (dot_S1024x512_S1536x512_S1024x1536_1_1_0_0_n_n.rhsIdx i q 0).val = (i 1).val := by
  unfold DotDims.rhsIdx
  rw [dif_neg (show ¬(0 : Fin S1536x512.rank) ∈ dot_S1024x512_S1536x512_S1024x1536_1_1_0_0_n_n.rhsBatch by decide), dif_pos (show (0 : Fin S1536x512.rank) ∈ dot_S1024x512_S1536x512_S1024x1536_1_1_0_0_n_n.rhsNonContracting by decide)]
  rfl
theorem rhs_d0_1 (i : S1024x1536.Idx) (q : dot_S1024x512_S1536x512_S1024x1536_1_1_0_0_n_n.contr.Idx) :
    (dot_S1024x512_S1536x512_S1024x1536_1_1_0_0_n_n.rhsIdx i q 1).val = (q ⟨0, by decide⟩).val :=
  dot_S1024x512_S1536x512_S1024x1536_1_1_0_0_n_n.rhsIdx_val_of_single rfl i q

/-- The payload at an entry of the block: the row of the row block times the row of the weights. -/
theorem pay1_apply (x0 : Vec Ideal S1024x512 .f32) (x1 : Vec Ideal S1536x512 .bf16) (p : Fin 1024) (e : Fin 1536) :
    k0_pay1 x0 x1 (ix2 p e) = ∑ d : Fin 512, x0 (ix2 p d) * x1 (ix2 e d) := by
  unfold k0_pay1
  refine (Cert.LibMatmul.matmul_zero_sum1 dot_S1024x512_S1536x512_S1024x1536_1_1_0_0_n_n none 512 rfl rfl _ _ (ix2 p e) (fun k => ix2 p k) (fun k => ix2 e k) ?_ ?_).trans ?_
  · intro q k hq
    funext a; apply Fin.ext
    match a with
    | ⟨0, _⟩ => exact lhs_d0_0 _ _
    | ⟨1, _⟩ => exact (lhs_d0_1 _ _).trans hq
  · intro q k hq
    funext a; apply Fin.ext
    match a with
    | ⟨0, _⟩ => exact rhs_d0_0 _ _
    | ⟨1, _⟩ => exact (rhs_d0_1 _ _).trans hq
  · refine Finset.sum_congr rfl fun d _ => ?_
    rw [truncf_apply, shapeCast_self, shapeCast_self]

section
variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row block and the output block move together along the rows, the weights stay. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 7 :=
  (by decide +kernel : ∀ t : Fin grid0.N, _)

/-- Every block of rows is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point `t` writes back is block `t` of the projection of the arrays as the launch finds them. -/
theorem flushed0_eq (c : Dev nD) (t : Fin cfg0.N) :
    (dat0 V c).flushed 2 t = ((cfg0.win 2).blk t).view.read (Elt Ideal) (projArr (V c main_v3) (V c main_v0)) := by
  show (cfg0.win 2).cut (grid0.coords t) ((dat0 V c).after 2 t) = _
  rw [after0_2]
  unfold out0_2
  rw [View.canon_unit_zero hz0]
  simp only [View.ld_unit_zero (S := S1024x512) hz0, View.ld_unit_zero (S := S1536x512) hz0]
  obtain ⟨e0, e1, e2, e3, e4, e5⟩ := idx_facts0 t
  funext j
  obtain ⟨p, e, rfl⟩ : ∃ (p : Fin 1024) (e : Fin 1536), j = ix2 p e := ⟨j 0, j 1, eq_ix2 j⟩
  show k0_pay1 (iblk0 V c 0 t) (iblk0 V c 1 t) (ix2 p e) = _
  refine (pay1_apply (iblk0 V c 0 t) (iblk0 V c 1 t) p e).trans ?_
  show ∑ d : Fin 512, asArr (s := S8192x512) (V c main_v3) (((cfg0.win 0).blk t).view.emb (ix2 p d)) * asArr (s := S1536x512) (V c main_v0) (((cfg0.win 1).blk t).view.emb (ix2 e d))
    = ∑ d : Fin 512, asArr (s := S8192x512) (V c main_v3) (ix2 ⟨((((cfg0.win 2).blk t).view.emb (ix2 p e)) 0).val, _⟩ d) * asArr (s := S1536x512) (V c main_v0) (ix2 ⟨((((cfg0.win 2).blk t).view.emb (ix2 p e)) 1).val, _⟩ d)
  refine Finset.sum_congr rfl fun d _ => ?_
  have h0 : ((cfg0.win 0).blk t).view.emb (ix2 p d) = ix2 ⟨((((cfg0.win 2).blk t).view.emb (ix2 p e)) 0).val, ((((cfg0.win 2).blk t).view.emb (ix2 p e)) 0).isLt⟩ d := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * d.val = d.val; omega
  have h1 : ((cfg0.win 1).blk t).view.emb (ix2 e d) = ix2 ⟨((((cfg0.win 2).blk t).view.emb (ix2 p e)) 1).val, ((((cfg0.win 2).blk t).view.emb (ix2 p e)) 1).isLt⟩ d := by
    funext a; apply Fin.ext
    match a with
    | ⟨0, _⟩ => show win0_1.index t (0 : Fin 2) * 1536 + 1 * e.val = win0_2.index t (1 : Fin 2) * 1536 + 1 * e.val; omega
    | ⟨1, _⟩ => show win0_1.index t (1 : Fin 2) * 512 + 1 * d.val = d.val; omega
  rw [h0, h1]
  rfl

theorem mem_blk0 (t : Fin cfg0.N) (i : S8192x1536.Idx) :
    i ∈ ((cfg0.win 2).blk t).view.set ↔ ∀ a : Fin 2, win0_2.index t a * S1024x1536.size a ≤ (i a).val ∧ (i a).val < win0_2.index t a * S1024x1536.size a + S1024x1536.size a := by
  show i ∈ ((View.whole main_v4).slice (win0_2.rect t)).set ↔ _
  rw [View.set_slice_whole, Rect.mem_set_unit]
  exact Iff.rfl

/-- Every entry of the array is in some point's block. -/
theorem cover0 (i : S8192x1536.Idx) :
    ∃ t : Fin cfg0.N, (cfg0.win 2).flush t = true ∧ i ∈ ((cfg0.win 2).blk t).view.set := by
  have hi0 : (i 0).val < 8192 := (i 0).isLt
  have hi1 : (i 1).val < 1536 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1536 ≤ (i 1).val ∧ (i 1).val < win0_2.index t (1 : Fin 2) * 1536 + 1536; omega

/-- The array the projection launch leaves: the projection of the flattened input onto the cast weights. -/
theorem final0 (c : Dev nD) : (dat0 V c).arrAt 2 cfg0.N = projArr (V c main_v3) (V c main_v0) :=
  (dat0 V c).arrAt_eq_of_cover 2 _ (fun t _ => flushed0_eq V c t) cover0

end

end Cert.KernelIdeal.Val

end
-- ==== Proof.Val.HostRead.lean ====
/-
  What the launches find. Before the projection launch the host flattens the input to 8192 rows and casts the projection
  weights (the identity on the extended reals); it also casts the output weights and lays the bias out as one row, which the
  attention launch finds unchanged. Between the launches it views the projected rows as two batches of 4096 and cuts the 1536
  projected features into the queries (features 0 to 511), the keys (512 to 1023) and the values (1024 to 1535).
-/
import proofs.«161986_j996432413274_2_alg».proof.Proof.KernelIdeal.Run
import proofs.«161986_j996432413274_2_alg».proof.Proof.Val.K0Value
import Idealize.ShloMosaic.Lib.Pipeline.Value
import Idealize.ShloMosaic.Lib.ValueLayout
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Idealize.ShloMosaic.StableHlo

variable (m : (ℓ : Loc nD τ sig) → Buf (Elt Ideal) ℓ) (ρ : Dev nD → PrngReg) (c : Dev nD)

/-! ## Before the projection launch -/

theorem V1_v3 : (V1 m ρ c main_v3 : S8192x512.Idx → EReal)
    = shapeCast S8192x512 (m ((c : Thread nD τ).loc main_arg0)) shapeCasts_S2x4096x512_S8192x512 := by
  show StableHlo.after hostOps0 (W0 m ρ c) (Proc.devRef .tc main_v3) = _
  dsimp only [hostOps0]; after_results; rfl

theorem V1_v0 : (V1 m ρ c main_v0 : S1536x512.Idx → EReal) = (m ((c : Thread nD τ).loc main_arg1) : S1536x512.Idx → EReal) := by
  show StableHlo.after hostOps0 (W0 m ρ c) (Proc.devRef .tc main_v0) = _
  dsimp only [hostOps0]; after_results; rfl

theorem V1_v1 : (V1 m ρ c main_v1 : S512x512.Idx → EReal) = (m ((c : Thread nD τ).loc main_arg2) : S512x512.Idx → EReal) := by
  show StableHlo.after hostOps0 (W0 m ρ c) (Proc.devRef .tc main_v1) = _
  dsimp only [hostOps0]; after_results; rfl

theorem V1_v2 : (V1 m ρ c main_v2 : S1x512.Idx → EReal)
    = shapeCast S1x512 (m ((c : Thread nD τ).loc main_arg3)) shapeCasts_S512_S1x512 := by
  show StableHlo.after hostOps0 (W0 m ρ c) (Proc.devRef .tc main_v2) = _
  dsimp only [hostOps0]; after_results; rfl

/-! ## After it: the projected rows -/

theorem W2_v4 : (W2 m ρ c (Proc.devRef .tc main_v4) : S8192x1536.Idx → EReal)
    = projArr (V1 m ρ c main_v3) (V1 m ρ c main_v0) :=
  (W2_arr m ρ c 2).trans (final0 (V1 m ρ) c)

/-! ## Before the attention launch -/

theorem V3_v6 : (V3 m ρ c main_v6 : S2x4096x512.Idx → EReal)
    = extractStridedSlice S2x4096x512 ![0, 0, 0] (shapeCast S2x4096x1536 (W2 m ρ c (Proc.devRef .tc main_v4)) shapeCasts_S8192x1536_S2x4096x1536) slices_S2x4096x1536_S2x4096x512_0_0_0 := by
  show StableHlo.after hostOps1 (W2 m ρ c) (Proc.devRef .tc main_v6) = _
  dsimp only [hostOps1]; after_results; rfl

theorem V3_v7 : (V3 m ρ c main_v7 : S2x4096x512.Idx → EReal)
    = extractStridedSlice S2x4096x512 ![0, 0, 512] (shapeCast S2x4096x1536 (W2 m ρ c (Proc.devRef .tc main_v4)) shapeCasts_S8192x1536_S2x4096x1536) slices_S2x4096x1536_S2x4096x512_0_0_512 := by
  show StableHlo.after hostOps1 (W2 m ρ c) (Proc.devRef .tc main_v7) = _
  dsimp only [hostOps1]; after_results; rfl

theorem V3_v8 : (V3 m ρ c main_v8 : S2x4096x512.Idx → EReal)
    = extractStridedSlice S2x4096x512 ![0, 0, 1024] (shapeCast S2x4096x1536 (W2 m ρ c (Proc.devRef .tc main_v4)) shapeCasts_S8192x1536_S2x4096x1536) slices_S2x4096x1536_S2x4096x512_0_0_1024 := by
  show StableHlo.after hostOps1 (W2 m ρ c) (Proc.devRef .tc main_v8) = _
  dsimp only [hostOps1]; after_results; rfl

/-- The cast output weights reach the attention launch as the first stretch left them. -/
theorem V3_v1 : (V3 m ρ c main_v1 : S512x512.Idx → EReal) = (m ((c : Thread nD τ).loc main_arg2) : S512x512.Idx → EReal) :=
  calc (V3 m ρ c main_v1 : S512x512.Idx → EReal)
    _ = W2 m ρ c (Proc.devRef .tc main_v1) := StableHlo.after_of_writes_sub hostOps1 _ hostOps1_writes (by decide)
    _ = W1 m ρ c (Proc.devRef .tc main_v1) := W2_of_ne m ρ c main_v1 (by decide)
    _ = _ := V1_v1 m ρ c

/-- So does the bias row. -/
theorem V3_v2 : (V3 m ρ c main_v2 : S1x512.Idx → EReal)
    = shapeCast S1x512 (m ((c : Thread nD τ).loc main_arg3)) shapeCasts_S512_S1x512 :=
  calc (V3 m ρ c main_v2 : S1x512.Idx → EReal)
    _ = W2 m ρ c (Proc.devRef .tc main_v2) := StableHlo.after_of_writes_sub hostOps1 _ hostOps1_writes (by decide)
    _ = W1 m ρ c (Proc.devRef .tc main_v2) := W2_of_ne m ρ c main_v2 (by decide)
    _ = _ := V1_v2 m ρ c

end Cert.KernelIdeal.Val

end
-- ==== Proof.Val.RefRead.lean ====
/-
  The reference, read at coordinates. Its projection gives, for batch b and row n, 1536 features: the queries' feature
  64 h + d of head h, the keys' at 512 + 64 h + d, the values' at 1024 + 64 h + d (a reshape to (3, 8, 64), a transpose and
  three slices say so). The score of row n against row k is the sum over the head's features of query times key, divided by
  the float 8; the softmax weight is the exponential of the score less the row's greatest score, over the sum of those
  exponentials; the attention output is the weights times the values; the result is that, heads side by side, times the output
  weights plus the bias.
-/
import proofs.«161986_j996432413274_2_alg».proof.Proof.Gen.ReferenceIdeal.Read
import Idealize.ShloMosaic.Lib.ValueIdx
import Idealize.ShloMosaic.Lib.IdealHost
import Idealize.ShloMosaic.PureOps.Ideal.Laws
import Idealize.ShloMosaic.PureOps.Reduce

set_option maxRecDepth 16384

noncomputable section

namespace Cert.RefVal

open Cert.ReferenceIdeal Cert.ReferenceIdeal.Gen Cert.ReferenceIdeal.Read
open Idealize.ShloMosaic Idealize.ShloMosaic.ValueIdx
open scoped BigOperators

abbrev XZ := (⟨S2x4096x512, .f32⟩ : BufTy).Contents (Elt Ideal)
abbrev XW := (⟨S1536x512, .f32⟩ : BufTy).Contents (Elt Ideal)
abbrev XA := (⟨S512x512, .f32⟩ : BufTy).Contents (Elt Ideal)
abbrev XB := (⟨S512, .f32⟩ : BufTy).Contents (Elt Ideal)

theorem fold_max_cast {n m : ℕ} (h : n = m) (b : EReal) (f : Fin n → EReal) :
    (Finset.univ : Finset (Fin n)).fold max b f = (Finset.univ : Finset (Fin m)).fold max b (fun k => f (Fin.cast h.symm k)) := by
  subst h; rfl

/-- The queries: head h, row n, feature d is projected feature 64 h + d. -/
theorem v9_at (x0 : XZ) (x1 : XW) (b : Fin 2) (h : Fin 8) (n : Fin 4096) (d : Fin 64) :
    val_main_v9 (F := Ideal) x0 x1 (ix4 b h n d)
      = val_main_v0 (F := Ideal) x0 x1 (ix3 b n ⟨0 + h.val * 64 + d.val, by have := h.isLt; have := d.isLt; omega⟩) := by
  rw [val_main_v9_apply, val_main_v4_apply, val_main_v3_apply, val_main_v2_apply, val_main_v1_apply]
  refine congrArg _ (funext fun a => Fin.ext ?_)
  have hb := b.isLt; have hh := h.isLt; have hn := n.isLt; have hd := d.isLt
  have e0 : (ix4 b h n d 0).val = b.val := rfl
  have e1 : (ix4 b h n d 1).val = h.val := rfl
  have e2 : (ix4 b h n d 2).val = n.val := rfl
  have e3 : (ix4 b h n d 3).val = d.val := rfl
  match a with
  | ⟨0, _⟩ => show _ = b.val; dsimp only; omega
  | ⟨1, _⟩ => show _ = n.val; dsimp only; omega
  | ⟨2, _⟩ => show _ = 0 + h.val * 64 + d.val; dsimp only; omega

/-- The keys: projected feature 512 + 64 h + d. -/
theorem v10_at (x0 : XZ) (x1 : XW) (b : Fin 2) (h : Fin 8) (n : Fin 4096) (d : Fin 64) :
    val_main_v10 (F := Ideal) x0 x1 (ix4 b h n d)
      = val_main_v0 (F := Ideal) x0 x1 (ix3 b n ⟨512 + h.val * 64 + d.val, by have := h.isLt; have := d.isLt; omega⟩) := by
  rw [val_main_v10_apply, val_main_v6_apply, val_main_v5_apply, val_main_v2_apply, val_main_v1_apply]
  refine congrArg _ (funext fun a => Fin.ext ?_)
  have hb := b.isLt; have hh := h.isLt; have hn := n.isLt; have hd := d.isLt
  have e0 : (ix4 b h n d 0).val = b.val := rfl
  have e1 : (ix4 b h n d 1).val = h.val := rfl
  have e2 : (ix4 b h n d 2).val = n.val := rfl
  have e3 : (ix4 b h n d 3).val = d.val := rfl
  match a with
  | ⟨0, _⟩ => show _ = b.val; dsimp only; omega
  | ⟨1, _⟩ => show _ = n.val; dsimp only; omega
  | ⟨2, _⟩ => show _ = 512 + h.val * 64 + d.val; dsimp only; omega

/-- The values: projected feature 1024 + 64 h + d. -/
theorem v11_at (x0 : XZ) (x1 : XW) (b : Fin 2) (h : Fin 8) (n : Fin 4096) (d : Fin 64) :
    val_main_v11 (F := Ideal) x0 x1 (ix4 b h n d)
      = val_main_v0 (F := Ideal) x0 x1 (ix3 b n ⟨1024 + h.val * 64 + d.val, by have := h.isLt; have := d.isLt; omega⟩) := by
  rw [val_main_v11_apply, val_main_v8_apply, val_main_v7_apply, val_main_v2_apply, val_main_v1_apply]
  refine congrArg _ (funext fun a => Fin.ext ?_)
  have hb := b.isLt; have hh := h.isLt; have hn := n.isLt; have hd := d.isLt
  have e0 : (ix4 b h n d 0).val = b.val := rfl
  have e1 : (ix4 b h n d 1).val = h.val := rfl
  have e2 : (ix4 b h n d 2).val = n.val := rfl
  have e3 : (ix4 b h n d 3).val = d.val := rfl
  match a with
  | ⟨0, _⟩ => show _ = b.val; dsimp only; omega
  | ⟨1, _⟩ => show _ = n.val; dsimp only; omega
  | ⟨2, _⟩ => show _ = 1024 + h.val * 64 + d.val; dsimp only; omega

/-- The score before scaling: queries times keys over the head's features. -/
theorem v12_at (x0 : XZ) (x1 : XW) (b : Fin 2) (h : Fin 8) (n k : Fin 4096) :
    val_main_v12 (F := Ideal) x0 x1 (ix4 b h n k)
      = ∑ d : Fin 64, val_main_v9 (F := Ideal) x0 x1 (ix4 b h n d) * val_main_v10 (F := Ideal) x0 x1 (ix4 b h k d) := by
  rw [val_main_v12_apply]
  refine Finset.sum_congr rfl fun d _ => ?_
  refine congrArg₂ (· * ·) (congrArg _ (funext fun a => Fin.ext ?_)) (congrArg _ (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The score: divided by the float 8. -/
theorem v14_at (x0 : XZ) (x1 : XW) (i : S2x8x4096x4096.Idx) :
    val_main_v14 (F := Ideal) x0 x1 i = Ideal.div (val_main_v12 (F := Ideal) x0 x1 i) (Ideal.ofBits .f32 0x41000000#32) := by
  rw [val_main_v14_apply, val_main_v13_apply]; rfl

end Cert.RefVal

end
-- ==== Proof.Val.Proj.lean ====
/-
  One projection for both programs. Entry (b, n, e) is the sum over the 512 input features of the input entry (b, n, d) times
  the projection weight (e, d). The kernel computes it on the flattened input and reads the queries, keys and values off the
  projected rows' features e, 512 + e and 1024 + e; the reference computes it in place. When the input and the weights are
  reals, so is every entry.
-/
import proofs.«161986_j996432413274_2_alg».proof.Proof.Val.HostRead
import proofs.«161986_j996432413274_2_alg».proof.Proof.Val.K1State
import proofs.«161986_j996432413274_2_alg».proof.Proof.Val.RefRead
import proofs.«161986_j996432413274_2_alg».proof.Proof.LibEReal

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec

/-- Entry (b, n, e) of the projection. -/
def projAt (z : (⟨3, ![2, 4096, 512]⟩ : Shape).Idx → EReal) (w : (⟨2, ![1536, 512]⟩ : Shape).Idx → EReal)
    (b : Fin 2) (n : Fin 4096) (e : Fin 1536) : EReal :=
  ∑ d : Fin 512, z (ix3 b n d) * w (ix2 e d)

/-- The same over natural coordinates and real entries (zero outside the extents). -/
def projR (zr : (⟨3, ![2, 4096, 512]⟩ : Shape).Idx → ℝ) (wr : (⟨2, ![1536, 512]⟩ : Shape).Idx → ℝ) (b n e : ℕ) : ℝ :=
  if h : b < 2 ∧ n < 4096 ∧ e < 1536 then ∑ d : Fin 512, zr (ix3 ⟨b, h.1⟩ ⟨n, h.2.1⟩ d) * wr (ix2 ⟨e, h.2.2⟩ d) else 0

theorem projAt_real (z : (⟨3, ![2, 4096, 512]⟩ : Shape).Idx → EReal) (w : (⟨2, ![1536, 512]⟩ : Shape).Idx → EReal)
    (zr : (⟨3, ![2, 4096, 512]⟩ : Shape).Idx → ℝ) (wr : (⟨2, ![1536, 512]⟩ : Shape).Idx → ℝ)
    (hz : ∀ i, z i = (zr i : EReal)) (hw : ∀ i, w i = (wr i : EReal)) (b : Fin 2) (n : Fin 4096) (e : Fin 1536) :
    projAt z w b n e = (projR zr wr b.val n.val e.val : EReal) := by
  unfold projAt projR
  rw [dif_pos ⟨b.isLt, n.isLt, e.isLt⟩, ← Cert.LibEReal.coe_sum]
  refine Finset.sum_congr rfl fun d _ => ?_
  rw [hz, hw, ← EReal.coe_mul]

/-! ## The layout reads -/

theorem flatten_apply (z : S2x4096x512.Idx → EReal) (b : Fin 2) (n : Fin 4096) (d : Fin 512) :
    shapeCast S8192x512 z shapeCasts_S2x4096x512_S8192x512 (ix2 ⟨b.val * 4096 + n.val, by have := b.isLt; have := n.isLt; omega⟩ d) = z (ix3 b n d) :=
  shapeCast_apply z _ _ _ (by
    rw [Shape.rowMajor_val_three, Shape.rowMajor_val_two]
    show (b.val * 4096 + n.val) * 512 + d.val = (b.val * 4096 + n.val) * 512 + d.val
    rfl)

theorem unflatten_apply (X : S8192x1536.Idx → EReal) (b : Fin 2) (n : Fin 4096) (e : Fin 1536) :
    shapeCast S2x4096x1536 X shapeCasts_S8192x1536_S2x4096x1536 (ix3 b n e) = X (ix2 ⟨b.val * 4096 + n.val, by have := b.isLt; have := n.isLt; omega⟩ e) :=
  shapeCast_apply X _ _ _ (by
    rw [Shape.rowMajor_val_two, Shape.rowMajor_val_three]
    show (b.val * 4096 + n.val) * 1536 + e.val = (b.val * 4096 + n.val) * 1536 + e.val
    rfl)

theorem cut_apply (off : ℕ) (X : S2x4096x1536.Idx → EReal) (h : S2x4096x1536.Slices ![0, 0, off] S2x4096x512)
    (b : Fin 2) (n : Fin 4096) (j : Fin 512) (e : Fin 1536) (he : e.val = off + j.val) :
    extractStridedSlice S2x4096x512 ![0, 0, off] X h (ix3 b n j) = X (ix3 b n e) :=
  extractStridedSlice_apply _ _ _ _ _ (fun ax => by
    match ax with
    | ⟨0, _⟩ => exact (Nat.zero_add _).symm
    | ⟨1, _⟩ => exact (Nat.zero_add _).symm
    | ⟨2, _⟩ => exact he)

section
variable (m : (ℓ : Loc nD τ sig) → Buf (Elt Ideal) ℓ) (ρ : Dev nD → PrngReg) (c : Dev nD)

/-- The projected rows, as the host sees them between the launches. -/
theorem rows_apply (b : Fin 2) (n : Fin 4096) (e : Fin 1536) :
    shapeCast S2x4096x1536 (asArr (s := S8192x1536) (W2 m ρ c (Proc.devRef .tc main_v4))) shapeCasts_S8192x1536_S2x4096x1536 (ix3 b n e)
      = projAt (m ((c : Thread nD τ).loc main_arg0)) (m ((c : Thread nD τ).loc main_arg1)) b n e := by
  refine (unflatten_apply _ b n e).trans ?_
  refine (congrFun (W2_v4 m ρ c) _).trans ?_
  unfold projArr proj projAt
  change @Eq EReal _ _
  refine Finset.sum_congr rfl fun d _ => ?_
  refine congrArg₂ (· * ·) ?_ ?_
  · refine (congrFun (V1_v3 m ρ c) _).trans ?_
    exact flatten_apply _ b n d
  · exact congrFun (V1_v0 m ρ c) _

theorem Qa_apply (b : Fin 2) (n : Fin 4096) (j : Fin 512) :
    Qa (V3 m ρ) c (ix3 b n j) = projAt (m ((c : Thread nD τ).loc main_arg0)) (m ((c : Thread nD τ).loc main_arg1)) b n ⟨j.val, by have := j.isLt; omega⟩ := by
  unfold Qa
  refine (congrFun (V3_v6 m ρ c) _).trans ?_
  refine (cut_apply 0 _ _ b n j ⟨j.val, by have := j.isLt; omega⟩ (by simp)).trans ?_
  exact rows_apply m ρ c b n _

theorem Ka_apply (b : Fin 2) (n : Fin 4096) (j : Fin 512) :
    Ka (V3 m ρ) c (ix3 b n j) = projAt (m ((c : Thread nD τ).loc main_arg0)) (m ((c : Thread nD τ).loc main_arg1)) b n ⟨512 + j.val, by have := j.isLt; omega⟩ := by
  unfold Ka
  refine (congrFun (V3_v7 m ρ c) _).trans ?_
  refine (cut_apply 512 _ _ b n j ⟨512 + j.val, by have := j.isLt; omega⟩ rfl).trans ?_
  exact rows_apply m ρ c b n _

theorem Va_apply (b : Fin 2) (n : Fin 4096) (j : Fin 512) :
    Va (V3 m ρ) c (ix3 b n j) = projAt (m ((c : Thread nD τ).loc main_arg0)) (m ((c : Thread nD τ).loc main_arg1)) b n ⟨1024 + j.val, by have := j.isLt; omega⟩ := by
  unfold Va
  refine (congrFun (V3_v8 m ρ c) _).trans ?_
  refine (cut_apply 1024 _ _ b n j ⟨1024 + j.val, by have := j.isLt; omega⟩ rfl).trans ?_
  exact rows_apply m ρ c b n _

end

/-- The reference's projection is the same function. -/
theorem ref_proj (x0 : Cert.RefVal.XZ) (x1 : Cert.RefVal.XW) (b : Fin 2) (n : Fin 4096) (e : Fin 1536) :
    Cert.ReferenceIdeal.Read.val_main_v0 (F := Ideal) x0 x1 (ix3 b n e) = projAt x0 x1 b n e := by
  rw [Cert.ReferenceIdeal.Read.val_main_v0_apply]
  unfold projAt
  refine Finset.sum_congr rfl fun d _ => congrArg₂ (· * ·) (congrArg _ (funext fun a => Fin.ext (by
      match a with
      | ⟨0, _⟩ => rfl
      | ⟨1, _⟩ => rfl
      | ⟨2, _⟩ => rfl))) (congrArg _ (funext fun a => Fin.ext (by
      match a with
      | ⟨0, _⟩ => rfl
      | ⟨1, _⟩ => rfl)))

end Cert.KernelIdeal.Val

end
-- ==== Proof.Val.RefRead2.lean ====
/-
  The reference's softmax and output, read at coordinates: the greatest score of a row (a fold of max from minus infinity over
  the 4096 keys), the exponentials of the scores less it, their sum from zero, the weights, the weights times the values, the
  heads laid side by side, the product with the output weights and the bias.
-/
import proofs.«161986_j996432413274_2_alg».proof.Proof.Val.RefRead

set_option maxRecDepth 16384

noncomputable section

namespace Cert.RefVal

open Cert.ReferenceIdeal Cert.ReferenceIdeal.Gen Cert.ReferenceIdeal.Read
open Idealize.ShloMosaic Idealize.ShloMosaic.ValueIdx
open scoped BigOperators

/-- A fold is unchanged when its operation is replaced by an equal one. -/
theorem fold_op_congr {α β : Type} (op1 op2 : β → β → β) [Std.Commutative op1] [Std.Associative op1] [Std.Commutative op2] [Std.Associative op2]
    (h : op1 = op2) (b : β) (f : α → β) (s : Finset α) : s.fold op1 b f = s.fold op2 b f := by
  subst h; rfl

/-- The reduced index (b, h, n) with key row `k` put back is (b, h, n, k). -/
theorem lift4 (hr : S2x8x4096x4096.Reduces [3] S2x8x4096) (b : Fin 2) (h : Fin 8) (n : Fin 4096) (k : Fin (S2x8x4096x4096.size 3)) :
    hr.lift (ix3 b h n) k = ix4 b h n (⟨k.val, k.isLt⟩ : Fin 4096) := by
  funext c; apply Fin.ext
  fin_cases c <;> rfl

/-- The greatest score of the row, from minus infinity. -/
theorem v15_at (x0 : XZ) (x1 : XW) (b : Fin 2) (h : Fin 8) (n : Fin 4096) :
    val_main_v15 (F := Ideal) x0 x1 (ix3 b h n)
      = (Finset.univ : Finset (Fin 4096)).fold max (Ideal.ofBits .f32 0xFF800000#32) (fun k => val_main_v14 (F := Ideal) x0 x1 (ix4 b h n k)) := by
  unfold val_main_v15
  have hr : S2x8x4096x4096.Reduces [3] S2x8x4096 := by decide
  generalize val_main_v14 (F := Ideal) x0 x1 = y
  refine (Host.reduce_eq_fold_single (FloatOps.maximumf (F := Ideal) (φ := .f32)) y (val_main_cst_0 (F := Ideal))
    reducesTo_S2x8x4096x4096_S2x8x4096_d3 hr h_S_ (ix3 b h n)).trans ?_
  refine (fold_op_congr (FloatOps.maximumf (F := Ideal) (φ := .f32)) max rfl _ _ _).trans ?_
  refine (fold_max_cast (show S2x8x4096x4096.size 3 = 4096 from rfl) _ _).trans ?_
  refine congrArg (fun f => Finset.fold max (Ideal.ofBits .f32 0xFF800000#32) f (Finset.univ : Finset (Fin 4096))) (funext fun k => ?_)
  exact congrArg y (lift4 _ b h n _)

/-- jax takes the maximum with minus infinity once more. -/
theorem v17_at (x0 : XZ) (x1 : XW) (i : S2x8x4096.Idx) :
    val_main_v17 (F := Ideal) x0 x1 i = max (Ideal.ofBits .f32 0xFF800000#32) (val_main_v15 (F := Ideal) x0 x1 i) := by
  rw [val_main_v17_apply, val_main_v16_apply]; rfl

/-- The row maximum broadcast along the keys. -/
theorem v19_at (x0 : XZ) (x1 : XW) (b : Fin 2) (h : Fin 8) (n k : Fin 4096) :
    val_main_v19 (F := Ideal) x0 x1 (ix4 b h n k) = val_main_v17 (F := Ideal) x0 x1 (ix3 b h n) := by
  rw [val_main_v19_apply, val_main_v18_apply]
  exact congrArg _ (funext fun a => Fin.ext (by
      match a with
      | ⟨0, _⟩ => rfl
      | ⟨1, _⟩ => rfl
      | ⟨2, _⟩ => rfl))

/-- The exponential of the score less the row maximum. -/
theorem v21_at (x0 : XZ) (x1 : XW) (b : Fin 2) (h : Fin 8) (n k : Fin 4096) :
    val_main_v21 (F := Ideal) x0 x1 (ix4 b h n k)
      = Ideal.exp (val_main_v14 (F := Ideal) x0 x1 (ix4 b h n k) - val_main_v17 (F := Ideal) x0 x1 (ix3 b h n)) := by
  rw [val_main_v21_apply, val_main_v20_apply, v19_at]; rfl

/-- The row sum of the exponentials, from zero. -/
theorem v22_at (x0 : XZ) (x1 : XW) (b : Fin 2) (h : Fin 8) (n : Fin 4096) :
    val_main_v22 (F := Ideal) x0 x1 (ix3 b h n)
      = Ideal.ofBits .f32 0x00000000#32 + ∑ k : Fin 4096, val_main_v21 (F := Ideal) x0 x1 (ix4 b h n k) := by
  rw [val_main_v22_apply]
  refine congrArg₂ (· + ·) rfl (Finset.sum_congr rfl fun k _ => congrArg _ (funext fun a => Fin.ext (by
      match a with
      | ⟨0, _⟩ => rfl
      | ⟨1, _⟩ => rfl
      | ⟨2, _⟩ => rfl
      | ⟨3, _⟩ => rfl)))

/-- The softmax weight. -/
theorem v25_at (x0 : XZ) (x1 : XW) (b : Fin 2) (h : Fin 8) (n k : Fin 4096) :
    val_main_v25 (F := Ideal) x0 x1 (ix4 b h n k)
      = Ideal.div (val_main_v21 (F := Ideal) x0 x1 (ix4 b h n k)) (val_main_v22 (F := Ideal) x0 x1 (ix3 b h n)) := by
  rw [val_main_v25_apply, val_main_v24_apply, val_main_v23_apply]
  exact congrArg (Ideal.div _) (congrArg _ (funext fun a => Fin.ext (by
      match a with
      | ⟨0, _⟩ => rfl
      | ⟨1, _⟩ => rfl
      | ⟨2, _⟩ => rfl)))

/-- The attention output: the weights times the values. -/
theorem v26_at (x0 : XZ) (x1 : XW) (b : Fin 2) (h : Fin 8) (n : Fin 4096) (d : Fin 64) :
    val_main_v26 (F := Ideal) x0 x1 (ix4 b h n d)
      = ∑ k : Fin 4096, val_main_v25 (F := Ideal) x0 x1 (ix4 b h n k) * val_main_v11 (F := Ideal) x0 x1 (ix4 b h k d) := by
  rw [val_main_v26_apply]
  refine Finset.sum_congr rfl fun k _ => congrArg₂ (· * ·) (congrArg _ (funext fun a => Fin.ext (by
      match a with
      | ⟨0, _⟩ => rfl
      | ⟨1, _⟩ => rfl
      | ⟨2, _⟩ => rfl
      | ⟨3, _⟩ => rfl))) (congrArg _ (funext fun a => Fin.ext (by
      match a with
      | ⟨0, _⟩ => rfl
      | ⟨1, _⟩ => rfl
      | ⟨2, _⟩ => rfl
      | ⟨3, _⟩ => rfl)))

/-- The heads laid side by side. -/
theorem v28_at (x0 : XZ) (x1 : XW) (b : Fin 2) (n : Fin 4096) (j : Fin 512) :
    val_main_v28 (F := Ideal) x0 x1 (ix3 b n j)
      = val_main_v26 (F := Ideal) x0 x1 (ix4 b (⟨j.val / 64, by have := j.isLt; omega⟩ : Fin 8) n (⟨j.val % 64, by omega⟩ : Fin 64)) := by
  rw [val_main_v28_apply, val_main_v27_apply]
  refine congrArg _ (funext fun a => Fin.ext ?_)
  have hb := b.isLt; have hn := n.isLt; have hj := j.isLt
  have e0 : (ix3 b n j 0).val = b.val := rfl
  have e1 : (ix3 b n j 1).val = n.val := rfl
  have e2 : (ix3 b n j 2).val = j.val := rfl
  match a with
  | ⟨0, _⟩ => show _ = b.val; dsimp only; omega
  | ⟨1, _⟩ => show _ = j.val / 64; dsimp only; omega
  | ⟨2, _⟩ => show _ = n.val; dsimp only; omega
  | ⟨3, _⟩ => show _ = j.val % 64; dsimp only; omega

/-- The reference's result at (b, n, e). -/
theorem v32_at (x0 : XZ) (x1 : XW) (x2 : XA) (x3 : XB) (b : Fin 2) (n : Fin 4096) (e : Fin 512) :
    val_main_v32 (F := Ideal) x0 x1 x2 x3 (ix3 b n e)
      = (∑ j : Fin 512, val_main_v28 (F := Ideal) x0 x1 (ix3 b n j) * x2 (ix2 e j)) + x3 (ix1 e) := by
  rw [val_main_v32_apply, val_main_v29_apply, val_main_v31_apply, val_main_v30_apply]
  refine congrArg₂ (· + ·) (Finset.sum_congr rfl fun j _ => congrArg₂ (· * ·) (congrArg _ (funext fun a => Fin.ext (by
      match a with
      | ⟨0, _⟩ => rfl
      | ⟨1, _⟩ => rfl
      | ⟨2, _⟩ => rfl))) (congrArg _ (funext fun a => Fin.ext (by
      match a with
      | ⟨0, _⟩ => rfl
      | ⟨1, _⟩ => rfl)))) (congrArg _ (funext fun a => Fin.ext (by
      match a with
      | ⟨0, _⟩ => rfl)))

end Cert.RefVal

end
-- ==== Proof.Val.Soft.lean ====
/-
  One attention row, both ways. For real scores S and values V along the 4096 keys, the softmax-weighted sum of the values
  is written flat: each weight the exponential of the score less the greatest score, over the sum of those exponentials. The
  kernel reaches it by the online fold over eight blocks of 512 keys (the quotient of its accumulator by its row sum); the
  reference writes it out, with the floats minus infinity and zero where the fold has the bottom element and zero.
-/
import proofs.«161986_j996432413274_2_alg».proof.Proof.LibOnlineSoftmaxFlat
import proofs.«161986_j996432413274_2_alg».proof.Proof.LibEReal
import Idealize.ShloMosaic.PureOps.Ideal.Laws

noncomputable section

namespace Cert.AttnSoft

open Idealize.ShloMosaic
open scoped BigOperators

/-- The softmax-weighted sum of `V` along `N` keys with scores `S`. -/
def flatSoft (N : ℕ) (S V : ℕ → ℝ) : EReal :=
  ∑ j : Fin N,
    Ideal.div (Ideal.exp ((S j.val : EReal) - max ⊥ (Finset.univ.fold max ⊥ fun j : Fin N => (S j.val : EReal))))
      (0 + ∑ j' : Fin N, Ideal.exp ((S j'.val : EReal) - max ⊥ (Finset.univ.fold max ⊥ fun j : Fin N => (S j.val : EReal))))
    * (V j.val : EReal)

/-- The kernel's way: after eight blocks of 512 keys the accumulator over the row sum. -/
theorem kernel_side (S V : ℕ → ℝ) (s v : ℕ → Fin 512 → EReal)
    (hs : ∀ (k : ℕ) (c : Fin 512), k < 8 → s k c = (S (k * 512 + c.val) : EReal))
    (hv : ∀ (k : ℕ) (c : Fin 512), k < 8 → v k c = (V (k * 512 + c.val) : EReal)) :
    Ideal.div (OnlineSoftmax.run s v 8).2.2 (OnlineSoftmax.run s v 8).2.1 = flatSoft (8 * 512) S V := by
  unfold flatSoft
  refine OnlineSoftmax.run_div_flat 8 512 (by norm_num) (by norm_num) (fun j => S j.val) (fun j => V j.val) s v
    (fun k hk c => ?_) (fun k hk c => ?_)
  · rw [hs k c hk, OnlineSoftmax.flat_val]
  · rw [hv k c hk, OnlineSoftmax.flat_val]

/-- Eight blocks of 512 keys are the 4096 keys. -/
theorem flat_4096 (S V : ℕ → ℝ) : flatSoft (8 * 512) S V = flatSoft 4096 S V :=
  congrArg (fun N => flatSoft N S V) (by norm_num)

/-- The reference's way, as it writes it. -/
theorem reference_side (N : ℕ) (S V : ℕ → ℝ) (sc vl : Fin N → EReal)
    (hs : ∀ k, sc k = (S k.val : EReal)) (hv : ∀ k, vl k = (V k.val : EReal)) :
    ∑ k : Fin N,
      Ideal.div (Ideal.exp (sc k - max (Ideal.ofBits .f32 0xFF800000#32) (Finset.univ.fold max (Ideal.ofBits .f32 0xFF800000#32) sc)))
        (Ideal.ofBits .f32 0x00000000#32 + ∑ k' : Fin N, Ideal.exp (sc k' - max (Ideal.ofBits .f32 0xFF800000#32) (Finset.univ.fold max (Ideal.ofBits .f32 0xFF800000#32) sc)))
      * vl k
      = flatSoft N S V := by
  have e1 : sc = fun k => (S k.val : EReal) := funext hs
  have e2 : vl = fun k => (V k.val : EReal) := funext hv
  subst e1; subst e2
  rw [Cert.LibEReal.ofBits_neg_inf, Ideal.ofBits_zero_f32]
  rfl

end Cert.AttnSoft

end
-- ==== Proof.Val.Scale.lean ====
/-
  The scale of the attention scores. The kernel multiplies each query entry by the float 1/8 before the product with the
  keys; the reference divides the whole product by the float 8. Both literals are exact, so for real queries and keys the two
  scores are one real number: the sum of the products over eight.
-/
import Idealize.ShloMosaic.PureOps.Ideal
import Idealize.ShloMosaic.PureOps.Ideal.Laws
import proofs.«161986_j996432413274_2_alg».proof.Proof.LibEReal

noncomputable section

namespace Cert.AttnScale

open Idealize.ShloMosaic
open scoped BigOperators

/-- The word `0x3E000000` is the real 1/8. -/
theorem ofBits_eighth : Ideal.ofBits .f32 0x3E000000#32 = (((1 / 8 : ℝ)) : EReal) := by
  simp [Ideal.ofBits, Ideal.ieee, -EReal.coe_mul]; norm_num

/-- The word `0x41000000` is the real 8. -/
theorem ofBits_eight : Ideal.ofBits .f32 0x41000000#32 = ((8 : ℝ) : EReal) := by
  simp [Ideal.ofBits, Ideal.ieee, -EReal.coe_mul]; norm_num

/-- The zero word is zero. -/
theorem ofBits_zero : Ideal.ofBits .f32 0x00000000#32 = 0 := by
  simp [Ideal.ofBits, Ideal.ieee]

/-- The kernel's score: queries scaled by 1/8 first. -/
theorem kernel_score {n : ℕ} (q k : Fin n → ℝ) :
    ∑ d, ((q d : EReal) * Ideal.ofBits .f32 0x3E000000#32) * (k d : EReal) = (((∑ d, q d * k d) / 8 : ℝ) : EReal) := by
  rw [ofBits_eighth, Finset.sum_div, ← Cert.LibEReal.coe_sum]
  refine Finset.sum_congr rfl fun d _ => ?_
  rw [← EReal.coe_mul, ← EReal.coe_mul]
  exact congrArg (fun x : ℝ => (x : EReal)) (by ring)

/-- The reference's score: the product divided by 8. -/
theorem reference_score {n : ℕ} (q k : Fin n → ℝ) :
    Ideal.div (∑ d, (q d : EReal) * (k d : EReal)) (Ideal.ofBits .f32 0x41000000#32) = (((∑ d, q d * k d) / 8 : ℝ) : EReal) := by
  rw [ofBits_eight]
  have h : ∑ d, (q d : EReal) * (k d : EReal) = ((∑ d, q d * k d : ℝ) : EReal) := by
    rw [← Cert.LibEReal.coe_sum]; exact Finset.sum_congr rfl fun d _ => (EReal.coe_mul _ _).symm
  rw [h, Cert.LibEReal.div_coe_coe _ _ (by norm_num)]

end Cert.AttnScale

end
-- ==== Proof.Val.Finite.lean ====
/-
  The precondition read back. It says of each float argument that every entry's absolute value is below plus infinity. On the
  extended reals that leaves exactly the reals. Only the input and the projection weights are decoded here: the scores are
  products of their entries, and the softmax algebra needs real scores; the output weights and the bias enter both programs
  through one and the same expression and need no such reading.
-/
import proofs.«161986_j996432413274_2_alg».proof.Defs
import proofs.«161986_j996432413274_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.AttnFinite

open Idealize.ShloMosaic Idealize.ShloMosaic.ValueIdx

instance : Subsingleton Cert.Pre_finite_inputs.S_.Idx := ⟨fun a b => funext fun d => d.elim0⟩

/-- An extended real whose absolute value is below the float plus infinity is a real. -/
theorem real_of_lt_inf (x : EReal) (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp, EReal.neg_bot] at h
  | coe r => exact ⟨r, rfl⟩
  | top => simp [Ideal.cmp, EReal.neg_top] at h

/-- Under the precondition every entry of the input and of the projection weights is a real. -/
theorem finite_z_w [Cert.Pre_finite_inputs.Facts]
    (x0 : FVec Ideal Cert.Pre_finite_inputs.S2x4096x512 .f32) (x1 : FVec Ideal Cert.Pre_finite_inputs.S1536x512 .f32)
    (x2 : FVec Ideal Cert.Pre_finite_inputs.S512x512 .f32) (x3 : FVec Ideal Cert.Pre_finite_inputs.S512 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  have e := congrFun h ix0
  dsimp only [Cert.Pre_finite_inputs.fn, Cert.Pre_finite_inputs.fn_part1, Idealize.ShloMosaic.andi] at e
  obtain ⟨e13, -⟩ := IntOp.andi_eq_one.1 e
  obtain ⟨e8, -⟩ := IntOp.andi_eq_one.1 e13
  obtain ⟨h3, h7⟩ := IntOp.andi_eq_one.1 e8
  refine ⟨fun i => ?_, fun i => ?_⟩
  · have h' := Host.reduce_andi_all _ _ _ _ _ h3 i
    simp only [Idealize.ShloMosaic.cmpf, Host.absf, broadcastInDim_scalar_apply, constant_apply] at h'
    exact real_of_lt_inf (x0 i) h'
  · have h' := Host.reduce_andi_all _ _ _ _ _ h7 i
    simp only [Idealize.ShloMosaic.cmpf, Host.absf, broadcastInDim_scalar_apply, constant_apply] at h'
    exact real_of_lt_inf (x1 i) h'

end Cert.AttnFinite

end
-- ==== Proof.Val.Alg.lean ====
/-
  The two programs compute one function. Under the precondition the input and the projection weights are reals, so the
  projection, the scores (the kernel's, scaled before the product, and the reference's, divided after it) and the values are
  reals; the kernel's accumulator over its row sum after eight key blocks and the reference's softmax-weighted sum are then the
  same flat sum over the 4096 keys; both programs lay the heads side by side, multiply by the same output weights and add the
  same bias.
-/
import proofs.«161986_j996432413274_2_alg».proof.Proof.Val.K1Array
import proofs.«161986_j996432413274_2_alg».proof.Proof.Val.Proj
import proofs.«161986_j996432413274_2_alg».proof.Proof.Val.RefRead2
import proofs.«161986_j996432413274_2_alg».proof.Proof.Val.Soft
import proofs.«161986_j996432413274_2_alg».proof.Proof.Val.Scale
import proofs.«161986_j996432413274_2_alg».proof.Proof.Val.Finite

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec Cert.AttnSoft Cert.AttnScale

/-- The real score of query row `n` against key row `mm` in head `hh` of batch `b`. -/
def Sreal (zr : (⟨3, ![2, 4096, 512]⟩ : Shape).Idx → ℝ) (wr : (⟨2, ![1536, 512]⟩ : Shape).Idx → ℝ) (b hh n mm : ℕ) : ℝ :=
  (∑ d : Fin 64, projR zr wr b n (hh * 64 + d.val) * projR zr wr b mm (512 + hh * 64 + d.val)) / 8

/-- The real value entry of key row `mm`, head `hh`, feature `dd`. -/
def Vreal (zr : (⟨3, ![2, 4096, 512]⟩ : Shape).Idx → ℝ) (wr : (⟨2, ![1536, 512]⟩ : Shape).Idx → ℝ) (b hh dd mm : ℕ) : ℝ :=
  projR zr wr b mm (1024 + hh * 64 + dd)

section
variable (m : (ℓ : Loc nD τ sig) → Buf (Elt Ideal) ℓ) (ρ : Dev nD → PrngReg) (c : Dev nD)
variable (zr : (⟨3, ![2, 4096, 512]⟩ : Shape).Idx → ℝ) (wr : (⟨2, ![1536, 512]⟩ : Shape).Idx → ℝ)
variable (hz : ∀ i, (m ((c : Thread nD τ).loc main_arg0) : S2x4096x512.Idx → EReal) i = (zr i : EReal))
variable (hw : ∀ i, (m ((c : Thread nD τ).loc main_arg1) : S1536x512.Idx → EReal) i = (wr i : EReal))

include hz hw

theorem natQ (b n j : ℕ) (hb : b < 2) (hn : n < 4096) (hj : j < 512) :
    nat3 (Qa (V3 m ρ) c) b n j = (projR zr wr b n j : EReal) := by
  rw [nat3_of _ _ _ _ hb hn hj, Qa_apply, projAt_real _ _ zr wr hz hw]

theorem natK (b n j : ℕ) (hb : b < 2) (hn : n < 4096) (hj : j < 512) :
    nat3 (Ka (V3 m ρ) c) b n j = (projR zr wr b n (512 + j) : EReal) := by
  rw [nat3_of _ _ _ _ hb hn hj, Ka_apply, projAt_real _ _ zr wr hz hw]

theorem natV (b n j : ℕ) (hb : b < 2) (hn : n < 4096) (hj : j < 512) :
    nat3 (Va (V3 m ρ) c) b n j = (projR zr wr b n (1024 + j) : EReal) := by
  rw [nat3_of _ _ _ _ hb hn hj, Va_apply, projAt_real _ _ zr wr hz hw]

/-- The kernel's score is the real score. -/
theorem kscore_real (b hh n mm : ℕ) (hb : b < 2) (hh8 : hh < 8) (hn : n < 4096) (hmm : mm < 4096) :
    kscore (Qa (V3 m ρ) c) (Ka (V3 m ρ) c) b hh n mm = (Sreal zr wr b hh n mm : EReal) := by
  unfold kscore Sreal
  rw [Finset.sum_congr rfl (fun (d : Fin 64) _ => by
    rw [natQ m ρ c zr wr hz hw b n (hh * 64 + d.val) hb hn (by have := d.isLt; omega),
      natK m ρ c zr wr hz hw b mm (hh * 64 + d.val) hb hmm (by have := d.isLt; omega)])]
  have e : ∀ d : Fin 64, projR zr wr b mm (512 + (hh * 64 + d.val)) = projR zr wr b mm (512 + hh * 64 + d.val) := fun d => by rw [Nat.add_assoc]
  simp only [e]
  exact kernel_score (fun d : Fin 64 => projR zr wr b n (hh * 64 + d.val)) (fun d : Fin 64 => projR zr wr b mm (512 + hh * 64 + d.val))

/-- The kernel's attention output at (b, n), feature `j` of the heads side by side. -/
theorem ksa_flat (b n j : ℕ) (hb : b < 2) (hn : n < 4096) (hj : j < 512) :
    ksa (Qa (V3 m ρ) c) (Ka (V3 m ρ) c) (Va (V3 m ρ) c) b n j = flatSoft 4096 (Sreal zr wr b (j / 64) n) (Vreal zr wr b (j / 64) (j % 64)) := by
  unfold ksa krun
  refine (kernel_side (Sreal zr wr b (j / 64) n) (Vreal zr wr b (j / 64) (j % 64)) _ _
    (fun k kc hk => kscore_real m ρ c zr wr hz hw b (j / 64) n (k * 512 + kc.val) hb (by omega) hn (by have := kc.isLt; omega))
    (fun k kc hk => by
      rw [natV m ρ c zr wr hz hw b (k * 512 + kc.val) (j / 64 * 64 + j % 64) hb (by have := kc.isLt; omega) (by omega)]
      unfold Vreal; rw [Nat.add_assoc])).trans (flat_4096 _ _)

end

/-! ## The reference -/

section
variable (x0 : Cert.RefVal.XZ) (x1 : Cert.RefVal.XW)
variable (zr : (⟨3, ![2, 4096, 512]⟩ : Shape).Idx → ℝ) (wr : (⟨2, ![1536, 512]⟩ : Shape).Idx → ℝ)
variable (hz : ∀ i, x0 i = (zr i : EReal)) (hw : ∀ i, x1 i = (wr i : EReal))

include hz hw

open Cert.ReferenceIdeal.Read in
/-- The reference's attention output for head `h`, row `n`, feature `d` of batch `b`. -/
theorem ref_flat (b : Fin 2) (h : Fin 8) (n : Fin 4096) (d : Fin 64) :
    val_main_v26 (F := Ideal) x0 x1 (ix4 b h n d) = flatSoft 4096 (Sreal zr wr b.val h.val n.val) (Vreal zr wr b.val h.val d.val) := by
  rw [Cert.RefVal.v26_at]
  simp only [Cert.RefVal.v25_at, Cert.RefVal.v22_at, Cert.RefVal.v21_at, Cert.RefVal.v17_at, Cert.RefVal.v15_at]
  refine reference_side 4096 _ _ (fun k => val_main_v14 (F := Ideal) x0 x1 (ix4 b h n k)) (fun k => val_main_v11 (F := Ideal) x0 x1 (ix4 b h k d)) (fun k => ?_) (fun k => ?_)
  · rw [Cert.RefVal.v14_at, Cert.RefVal.v12_at]
    simp only [Cert.RefVal.v9_at, Cert.RefVal.v10_at, ref_proj, projAt_real _ _ zr wr hz hw, Nat.zero_add]
    exact reference_score (fun dd : Fin 64 => projR zr wr b.val n.val (h.val * 64 + dd.val)) (fun dd : Fin 64 => projR zr wr b.val k.val (512 + h.val * 64 + dd.val))
  · rw [Cert.RefVal.v11_at, ref_proj, projAt_real _ _ zr wr hz hw]
    rfl

end

end Cert.KernelIdeal.Val

end
-- ==== Proof.Val.Main.lean ====
/-
  The value claim. The idealized kernel ends with its result array at what the attention launch leaves, which is the spec array
  of the queries, keys and values the host cut from the projected rows; the reference ends with its result at the composed term
  of its operations. Entry by entry the two are the same sum over the 512 features of the same attention output times the same
  output weight, plus the same bias entry.
-/
import proofs.«161986_j996432413274_2_alg».proof.Proof.Val.Alg
import proofs.«161986_j996432413274_2_alg».proof.Proof.KernelIdeal.Run
import proofs.«161986_j996432413274_2_alg».proof.Proof.Gen.ReferenceIdeal.Read
import proofs.«161986_j996432413274_2_alg».proof.Defs
import proofs.«161986_j996432413274_2_alg».proof.Proof.Gen.KernelIdeal
import proofs.«161986_j996432413274_2_alg».proof.Proof.Gen.ReferenceIdeal
import proofs.«161986_j996432413274_2_alg».proof.Proof.Gen.Pre_finite_inputs

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

open Cert.AttnSpec Cert.AttnSoft

/-- The kernel's result array is the reference's composed term of the same arguments. -/
theorem result_eq (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    (W4 m ρ c (Proc.devRef .tc main_v9) : S2x4096x512.Idx → EReal)
      = Cert.ReferenceIdeal.Read.val_main_v32 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨hzf, hwf⟩ := Cert.AttnFinite.finite_z_w _ _ _ _ hpre
  choose zr hz using hzf
  choose wr hw using hwf
  refine ((W4_arr m ρ c 5).trans (final1 (V3 m ρ) c)).trans ?_
  funext i
  obtain ⟨b, n, e, rfl⟩ : ∃ (b : Fin 2) (n : Fin 4096) (e : Fin 512), i = ix3 b n e := ⟨i 0, i 1, i 2, eq_ix3 i⟩
  rw [Cert.RefVal.v32_at]
  show (∑ j : Fin 512, ksa (Qa (V3 m ρ) c) (Ka (V3 m ρ) c) (Va (V3 m ρ) c) b.val n.val j.val * (V3 m ρ c main_v1 : S512x512.Idx → EReal) (ix2 e j))
      + (V3 m ρ c main_v2 : S1x512.Idx → EReal) (ix2 (0 : Fin 1) e) = _
  refine congrArg₂ (· + ·) (Finset.sum_congr rfl fun j _ => congrArg₂ (· * ·) ?_ ?_) ?_
  · rw [Cert.RefVal.v28_at, ref_flat _ _ zr wr hz hw]
    exact ksa_flat m ρ c zr wr hz hw b.val n.val j.val b.isLt n.isLt j.isLt
  · exact congrFun (V3_v1 m ρ c) _
  · refine (congrFun (V3_v2 m ρ c) _).trans ?_
    exact shapeCast_a_1a_apply _ _ (0 : Fin 1) e

end Cert.KernelIdeal.Val

namespace Cert.Proof

open Idealize.ShloMosaic Idealize.SL.Sem Cert.KernelIdeal Cert.KernelIdeal.Hand Cert.KernelIdeal.Val

/-- From memories agreeing on the arguments both idealized programs run to the end with equal results. -/
theorem algebraic : Cert.algebraic_KernelIdeal_ReferenceIdeal := by
  intro m ρ m' ρ' hpre hagree
  refine ⟨fun c => W4 m ρ c (Proc.devRef .tc main_v9), ?_, ?_⟩
  · exact (θ_run Cert.KernelIdeal.defs _ _).mono (fun r h c =>
      ⟨h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩) (run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v32_eq, (hagree c).1, (hagree c).2.1, (hagree c).2.2.1, (hagree c).2.2.2]
    exact (result_eq m ρ c (hpre c)).symm

end Cert.Proof

end
-- ==== Proof.lean ====
/-
  The five claims for the attention kernel of two launches against its reference.

  The word-level program and its idealization are the same text read at two float instances, so one frame argument serves
  both: @main is four segments (host casts and reshapes; the projection launch; host slices; the attention launch), each
  launch's body is run symbolically at a generic grid point, and the attention launch's invariant names what its four scratch
  buffers hold between points. The reference is a straight line of host operations, whose run is read back. The ideal pass
  rewrote nothing, so the idealization claim is trivial. The value claim joins the kernel's blockwise online softmax to the
  reference's whole-row softmax: after each key block the scratch buffers hold the online-softmax state of every query row,
  the last key block's quotient is the softmax-weighted sum over all 4096 keys, and the scale 1/8 applied to the queries
  before the product is the division by 8 after it, the inputs being finite.
-/
import proofs.«161986_j996432413274_2_alg».proof.Defs
import proofs.«161986_j996432413274_2_alg».proof.Proof.Gen.Kernel
import proofs.«161986_j996432413274_2_alg».proof.Proof.Gen.KernelIdeal
import proofs.«161986_j996432413274_2_alg».proof.Proof.Gen.ReferenceIdeal
import proofs.«161986_j996432413274_2_alg».proof.Proof.Gen.Pre_finite_inputs
import proofs.«161986_j996432413274_2_alg».proof.Proof.Gen.ReferenceIdeal.Run
import proofs.«161986_j996432413274_2_alg».proof.Proof.Kernel.Run
import proofs.«161986_j996432413274_2_alg».proof.Proof.KernelIdeal.Run
import proofs.«161986_j996432413274_2_alg».proof.Proof.Val.Main
import Idealize.ShloMosaic.Adequacy
import Idealize.ShloMosaic.Init

noncomputable section

namespace Cert.Proof

open Idealize.ShloMosaic Idealize.SL.Sem

/-- The word-level program runs to the end, faults nowhere and leaves its arguments as launched. -/
theorem frame_kernel : Cert.frame_Kernel := fun m ρ _ => Cert.Kernel.Hand.frame m ρ

/-- So does its idealization, at the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
